-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v23_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v23_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000x96 : Shape := ⟨2, ![800000, 96]⟩
abbrev S800000 : Shape := ⟨1, ![800000]⟩
abbrev S96x64 : Shape := ⟨2, ![96, 64]⟩
abbrev S96x96 : Shape := ⟨2, ![96, 96]⟩
abbrev S96 : Shape := ⟨1, ![96]⟩
abbrev S64 : Shape := ⟨1, ![64]⟩
abbrev S64x96 : Shape := ⟨2, ![64, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x96 : S_.BroadcastsInDim S800000x96 (![] : Fin 0 → Fin S800000x96.rank)
  reducesTo_S800000x96_S_d0_1 : S800000x96.ReducesTo [0, 1] S_
  bcast_S_S96x64 : S_.BroadcastsInDim S96x64 (![] : Fin 0 → Fin S96x64.rank)
  reducesTo_S96x64_S_d0_1 : S96x64.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S64 : S_.BroadcastsInDim S64 (![] : Fin 0 → Fin S64.rank)
  reducesTo_S64_S_d0 : S64.ReducesTo [0] S_
  bcast_S_S64x96 : S_.BroadcastsInDim S64x96 (![] : Fin 0 → Fin S64x96.rank)
  reducesTo_S64x96_S_d0_1 : S64x96.ReducesTo [0, 1] S_

variable [Facts]

def fn_part2 {F : FTy → Type} [FloatOps F] (main_arg9 : FVec F S64 .f32) (main_arg10 : FVec F S64x96 .f32) (main_arg11 : FVec F S96 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x96 .f32 := Host.absf main_arg10
  let main_cst_14 : FVec F S_ .f32 := constant S_ .f32 0x7F800000#32
  let main_v40 : FVec F S64x96 .f32 := broadcastInDim S64x96 ![] bcast_S_S64x96 main_cst_14
  let main_v41 : IVec S64x96 1 := cmpf .olt main_v39 main_v40
  let main_c_15 : IVec S_ 1 := constantI S_ 1 1#1
  let main_v42 : IVec S_ 1 := (fun x v => Host.reduce IntOp.andi x v reducesTo_S64x96_S_d0_1 h_S_) main_v41 main_c_15
  let main_v43 : IVec S_ 1 := andi main_v38 main_v42
  let main_v44 : FVec F S96 .f32 := Host.absf main_arg11
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  main_v48

def fn_part1 {F : FTy → Type} [FloatOps F] (main_arg6 : FVec F S96x96 .f32) (main_arg7 : FVec F S96 .f32) (main_arg8 : FVec F S96x64 .f32) (main_arg9 : FVec F S64 .f32) (main_arg10 : FVec F S64x96 .f32) (main_arg11 : FVec F S96 .f32) (main_v13 : IVec S_ 1) (main_v16 : IVec S96x64 1) : IVec S_ 1 :=
  let main_c_5 : IVec S_ 1 := constantI S_ 1 1#1
  let main_v17 : IVec S_ 1 := (fun x v => Host.reduce IntOp.andi x v reducesTo_S96x64_S_d0_1 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x64 .f32 := Host.absf main_arg8
  let main_cst_10 : FVec F S_ .f32 := constant S_ .f32 0x7F800000#32
  let main_v30 : FVec F S96x64 .f32 := broadcastInDim S96x64 ![] bcast_S_S96x64 main_cst_10
  let main_v31 : IVec S96x64 1 := cmpf .olt main_v29 main_v30
  let main_c_11 : IVec S_ 1 := constantI S_ 1 1#1
  let main_v32 : IVec S_ 1 := (fun x v => Host.reduce IntOp.andi x v reducesTo_S96x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x96 .f32) (main_arg1 : FVec F S800000x96 .f32) (main_arg2 : IVec S800000 32) (main_arg3 : IVec S800000 32) (main_arg4 : FVec F S96x64 .f32) (main_arg5 : FVec F S96x64 .f32) (main_arg6 : FVec F S96x96 .f32) (main_arg7 : FVec F S96 .f32) (main_arg8 : FVec F S96x64 .f32) (main_arg9 : FVec F S64 .f32) (main_arg10 : FVec F S64x96 .f32) (main_arg11 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x96 .f32 := Host.absf main_arg1
  let main_cst_0 : FVec F S_ .f32 := constant S_ .f32 0x7F800000#32
  let main_v5 : FVec F S800000x96 .f32 := broadcastInDim S800000x96 ![] bcast_S_S800000x96 main_cst_0
  let main_v6 : IVec S800000x96 1 := cmpf .olt main_v4 main_v5
  let main_c_1 : IVec S_ 1 := constantI S_ 1 1#1
  let main_v7 : IVec S_ 1 := (fun x v => Host.reduce IntOp.andi x v reducesTo_S800000x96_S_d0_1 h_S_) main_v6 main_c_1
  let main_v8 : IVec S_ 1 := andi main_v3 main_v7
  let main_v9 : FVec F S96x64 .f32 := Host.absf main_arg4
  let main_cst_2 : FVec F S_ .f32 := constant S_ .f32 0x7F800000#32
  let main_v10 : FVec F S96x64 .f32 := broadcastInDim S96x64 ![] bcast_S_S96x64 main_cst_2
  let main_v11 : IVec S96x64 1 := cmpf .olt main_v9 main_v10
  let main_c_3 : IVec S_ 1 := constantI S_ 1 1#1
  let main_v12 : IVec S_ 1 := (fun x v => Host.reduce IntOp.andi x v reducesTo_S96x64_S_d0_1 h_S_) main_v11 main_c_3
  let main_v13 : IVec S_ 1 := andi main_v8 main_v12
  let main_v14 : FVec F S96x64 .f32 := Host.absf main_arg5
  let main_cst_4 : FVec F S_ .f32 := constant S_ .f32 0x7F800000#32
  let main_v15 : FVec F S96x64 .f32 := broadcastInDim S96x64 ![] bcast_S_S96x64 main_cst_4
  let main_v16 : IVec S96x64 1 := cmpf .olt main_v14 main_v15
  fn_part1 (F := F) main_arg6 main_arg7 main_arg8 main_arg9 main_arg10 main_arg11 main_v13 main_v16
-- ==== Kernel.lean ====
abbrev S50000x96 : Shape := ⟨2, ![50000, 96]⟩
abbrev S800000x96 : Shape := ⟨2, ![800000, 96]⟩
abbrev S800000 : Shape := ⟨1, ![800000]⟩
abbrev S96x64 : Shape := ⟨2, ![96, 64]⟩
abbrev S96x96 : Shape := ⟨2, ![96, 96]⟩
abbrev S96 : Shape := ⟨1, ![96]⟩
abbrev S64 : Shape := ⟨1, ![64]⟩
abbrev S64x96 : Shape := ⟨2, ![64, 96]⟩
abbrev S64x8 : Shape := ⟨2, ![64, 8]⟩
abbrev S8x96 : Shape := ⟨2, ![8, 96]⟩
abbrev S_ : Shape := ⟨0, ![]⟩
abbrev S1x96 : Shape := ⟨2, ![1, 96]⟩
abbrev S1x64 : Shape := ⟨2, ![1, 64]⟩
abbrev S50000x64 : Shape := ⟨2, ![50000, 64]⟩
abbrev S2000x96 : Shape := ⟨2, ![2000, 96]⟩
abbrev S2000x64 : Shape := ⟨2, ![2000, 64]⟩
abbrev S800000x1 : Shape := ⟨2, ![800000, 1]⟩
abbrev S800000x64 : Shape := ⟨2, ![800000, 64]⟩
abbrev S800000x8 : Shape := ⟨2, ![800000, 8]⟩
abbrev S3200x96 : Shape := ⟨2, ![3200, 96]⟩
abbrev S3200x64 : Shape := ⟨2, ![3200, 64]⟩
abbrev S3200x8 : Shape := ⟨2, ![3200, 8]⟩
abbrev S800000x8x12 : Shape := ⟨3, ![800000, 8, 12]⟩
abbrev S800000x8x1 : Shape := ⟨3, ![800000, 8, 1]⟩
abbrev S50000x8x12 : Shape := ⟨3, ![50000, 8, 12]⟩
abbrev S50000x8x1 : Shape := ⟨3, ![50000, 8, 1]⟩

abbrev nBuf : Space → Nat
  | .hbm => 63
  | .vmem => 28
  | .smem => 0
  | _ => 0

abbrev bufTy : (tb : Table) → Fin (tcTables nBuf tb) → BufTy
  | .hbm, ⟨0, _⟩ => ⟨S50000x96, .f32⟩
  | .hbm, ⟨1, _⟩ => ⟨S800000x96, .f32⟩
  | .hbm, ⟨2, _⟩ => ⟨S800000, .i32⟩
  | .hbm, ⟨3, _⟩ => ⟨S800000, .i32⟩
  | .hbm, ⟨4, _⟩ => ⟨S96x64, .f32⟩
  | .hbm, ⟨5, _⟩ => ⟨S96x64, .f32⟩
  | .hbm, ⟨6, _⟩ => ⟨S96x96, .f32⟩
  | .hbm, ⟨7, _⟩ => ⟨S96, .f32⟩
  | .hbm, ⟨8, _⟩ => ⟨S96x64, .f32⟩
  | .hbm, ⟨9, _⟩ => ⟨S64, .f32⟩
  | .hbm, ⟨10, _⟩ => ⟨S64x96, .f32⟩
  | .hbm, ⟨11, _⟩ => ⟨S96, .f32⟩
  | .hbm, ⟨12, _⟩ => ⟨S64x8, .f32⟩
  | .hbm, ⟨13, _⟩ => ⟨S8x96, .f32⟩
  | .hbm, ⟨14, _⟩ => ⟨S_, .f32⟩
  | .hbm, ⟨15, _⟩ => ⟨S96, .f32⟩
  | .hbm, ⟨16, _⟩ => ⟨S_, .f32⟩
  | .hbm, ⟨17, _⟩ => ⟨S96, .f32⟩
  | .hbm, ⟨18, _⟩ => ⟨S96, .f32⟩
  | .hbm, ⟨19, _⟩ => ⟨S1x96, .f32⟩
  | .hbm, ⟨20, _⟩ => ⟨S1x64, .f32⟩
  | .hbm, ⟨21, _⟩ => ⟨S1x96, .f32⟩
  | .hbm, ⟨22, _⟩ => ⟨S50000x64, .f32⟩
  | .hbm, ⟨23, _⟩ => ⟨S50000x96, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x96, .f32⟩
  | .hbm, ⟨42, _⟩ => ⟨S1x64, .f32⟩
  | .hbm, ⟨43, _⟩ => ⟨S1x96, .f32⟩
  | .hbm, ⟨44, _⟩ => ⟨S800000x96, .f32⟩
  | .hbm, ⟨45, _⟩ => ⟨S800000x96, .f32⟩
  | .hbm, ⟨46, _⟩ => ⟨S800000x8, .f32⟩
  | .hbm, ⟨47, _⟩ => ⟨S800000x8x12, .f32⟩
  | .hbm, ⟨48, _⟩ => ⟨S800000x8x1, .f32⟩
  | .hbm, ⟨49, _⟩ => ⟨S_, .f32⟩
  | .hbm, ⟨50, _⟩ => ⟨S50000x8x12, .f32⟩
  | .hbm, ⟨51, _⟩ => ⟨S800000x1, .i32⟩
  | .hbm, ⟨52, _⟩ => ⟨S50000x8x12, .f32⟩
  | .hbm, ⟨53, _⟩ => ⟨S_, .f32⟩
  | .hbm, ⟨54, _⟩ => ⟨S50000x8x1, .f32⟩
  | .hbm, ⟨55, _⟩ => ⟨S800000x1, .i32⟩
  | .hbm, ⟨56, _⟩ => ⟨S50000x8x1, .f32⟩
  | .hbm, ⟨57, _⟩ => ⟨S_, .f32⟩
  | .hbm, ⟨58, _⟩ => ⟨S50000x8x1, .f32⟩
  | .hbm, ⟨59, _⟩ => ⟨S50000x8x1, .f32⟩
  | .hbm, ⟨60, _⟩ => ⟨S50000x8x12, .f32⟩
  | .hbm, ⟨61, _⟩ => ⟨S50000x8x12, .f32⟩
  | .hbm, ⟨62, _⟩ => ⟨S50000x96, .f32⟩
  | .local _ .vmem, ⟨0, _⟩ => ⟨S2000x96, .f32⟩
  | .local _ .vmem, ⟨1, _⟩ => ⟨S2000x96, .f32⟩
  | .local _ .vmem, ⟨2, _⟩ => ⟨S96x64, .f32⟩
  | .local _ .vmem, ⟨3, _⟩ => ⟨S96x96, .f32⟩
  | .local _ .vmem, ⟨4, _⟩ => ⟨S1x96, .f32⟩
  | .local _ .vmem, ⟨5, _⟩ => ⟨S2000x64, .f32⟩
  | .local _ .vmem, ⟨6, _⟩ => ⟨S2000x64, .f32⟩
  | .local _ .vmem, ⟨7, _⟩ => ⟨S2000x96, .f32⟩
  | .local _ .vmem, ⟨8, _⟩ => ⟨S2000x96, .f32⟩
  | .local _ .vmem, ⟨9, _⟩ => ⟨S3200x96, .f32⟩
  | .local _ .vmem, ⟨10, _⟩ => ⟨S3200x96, .f32⟩
  | .local _ .vmem, ⟨11, _⟩ => ⟨S3200x64, .f32⟩
  | .local _ .vmem, ⟨12, _⟩ => ⟨S3200x64, .f32⟩
  | .local _ .vmem, ⟨13, _⟩ => ⟨S3200x96, .f32⟩
  | .local _ .vmem, ⟨14, _⟩ => ⟨S3200x96, .f32⟩
  | .local _ .vmem, ⟨15, _⟩ => ⟨S1x64, .f32⟩
  | .local _ .vmem, ⟨16, _⟩ => ⟨S96x64, .f32⟩
  | .local _ .vmem, ⟨17, _⟩ => ⟨S1x64, .f32⟩
  | .local _ .vmem, ⟨18, _⟩ => ⟨S64x96, .f32⟩
  | .local _ .vmem, ⟨19, _⟩ => ⟨S1x96, .f32⟩
  | .local _ .vmem, ⟨20, _⟩ => ⟨S64x8, .f32⟩
  | .local _ .vmem, ⟨21, _⟩ => ⟨S8x96, .f32⟩
  | .local _ .vmem, ⟨22, _⟩ => ⟨S3200x96, .f32⟩
  | .local _ .vmem, ⟨23, _⟩ => ⟨S3200x96, .f32⟩
  | .local _ .vmem, ⟨24, _⟩ => ⟨S3200x96, .f32⟩
  | .local _ .vmem, ⟨25, _⟩ => ⟨S3200x96, .f32⟩
  | .local _ .vmem, ⟨26, _⟩ => ⟨S3200x8, .f32⟩
  | .local _ .vmem, ⟨27, _⟩ => ⟨S3200x8, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_cst_1 : Ref sig .tc := ⟨.hbm, 14, rfl⟩
abbrev main_v0 : Ref sig .tc := ⟨.hbm, 15, rfl⟩
abbrev main_cst_2 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev main_c : Ref sig .tc := ⟨.hbm, 24, rfl⟩
abbrev main_v7 : Ref sig .tc := ⟨.hbm, 25, rfl⟩
abbrev main_v8 : Ref sig .tc := ⟨.hbm, 26, rfl⟩
abbrev main_c_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_4 : Ref sig .tc := ⟨.hbm, 33, rfl⟩
abbrev main_v14 : Ref sig .tc := ⟨.hbm, 34, rfl⟩
abbrev main_v15 : Ref sig .tc := ⟨.hbm, 35, rfl⟩
abbrev main_c_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23_0 : Ref sig .tc := ⟨.hbm, 44, rfl⟩
abbrev main_v23_1 : Ref sig .tc := ⟨.hbm, 45, rfl⟩
abbrev main_v23_2 : Ref sig .tc := ⟨.hbm, 46, rfl⟩
abbrev main_v24 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc1_stg12_0 : Ref sig .tc := ⟨.vmem, 26, rfl⟩
abbrev cc1_stg12_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23
abbrev cc1_sem11_0 : DmaSem sig := 24
abbrev cc1_sem11_1 : DmaSem sig := 25
abbrev cc1_sem12_0 : DmaSem sig := 26
abbrev cc1_sem12_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x96 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x96 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S3200x96 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S3200x96 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S3200x8 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  reducesTo_S50000x96_S96_d0 : S50000x96.ReducesTo [0] S96
  h_S_ : 0 < S_.numel
  bcast_S_S96 : S_.BroadcastsInDim S96 (![] : Fin 0 → Fin S96.rank)
  shapeCasts_S96_S1x96 : S96.ShapeCasts S1x96
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  inb_S96x64_S96x64_0_0 : ∀ a, (![0, 0] : Fin 2 → Nat) a + S96x64.size a ≤ S96x64.size a
  h_S96x64 : 0 < S96x64.numel
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S2000x64_S2000x64_0_0 : ∀ a, (![0, 0] : Fin 2 → Nat) a + S2000x64.size a ≤ S2000x64.size a
  h_S2000x64 : 0 < S2000x64.numel
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  inb_S3200x96_S3200x96_0_0 : ∀ a, (![0, 0] : Fin 2 → Nat) a + S3200x96.size a ≤ S3200x96.size a
  h_S3200x96 : 0 < S3200x96.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S64x8_S64x8_0_0 : ∀ a, (![0, 0] : Fin 2 → Nat) a + S64x8.size a ≤ S64x8.size a
  h_S64x8 : 0 < S64x8.numel
  inb_S8x96_S8x96_0_0 : ∀ a, (![0, 0] : Fin 2 → Nat) a + S8x96.size a ≤ S8x96.size a
  h_S8x96 : 0 < S8x96.numel
  shapeCasts_S3200x96_S3200x96 : S3200x96.ShapeCasts S3200x96
  inb_S64x96_S64x96_0_0 : ∀ a, (![0, 0] : Fin 2 → Nat) a + S64x96.size a ≤ S64x96.size a
  h_S64x96 : 0 < S64x96.numel
  broadcasts_S1x96_S3200x96 : S1x96.Broadcasts S3200x96
  inb_S3200x8_S3200x8_0_0 : ∀ a, (![0, 0] : Fin 2 → Nat) a + S3200x8.size a ≤ S3200x8.size a
  h_S3200x8 : 0 < S3200x8.numel
  shapeCasts_S800000x96_S800000x8x12 : S800000x96.ShapeCasts S800000x8x12
  shapeCasts_S800000x8_S800000x8x1 : S800000x8.ShapeCasts S800000x8x1
  bcast_S_S50000x8x12 : S_.BroadcastsInDim S50000x8x12 (![] : Fin 0 → Fin S50000x8x12.rank)
  bcast_S_S50000x8x1 : S_.BroadcastsInDim S50000x8x1 (![] : Fin 0 → Fin S50000x8x1.rank)
  bcast_S50000x8x1_S50000x8x12_0_1_2 : S50000x8x1.BroadcastsInDim S50000x8x12 (![0, 1, 2] : Fin 3 → Fin S50000x8x12.rank)
  shapeCasts_S50000x8x12_S50000x96 : S50000x8x12.ShapeCasts S50000x96
  dot_S1x96_S96x64_S1x64_1_0_0_1_n_n_wf : DotDims.WF S1x96 S96x64 S1x64 [1] [0] [0] [1] [] []
  dot_S2000x96_S96x64_S2000x64_1_0_0_1_n_n_wf : DotDims.WF S2000x96 S96x64 S2000x64 [1] [0] [0] [1] [] []
  dot_S2000x96_S96x96_S2000x96_1_0_0_1_n_n_wf : DotDims.WF S2000x96 S96x96 S2000x96 [1] [0] [0] [1] [] []
  gather_S50000x64_S800000x1_S800000x64_1_0_n_n_0_1_164_wf : GatherDims.WF S50000x64 S800000x1 S800000x64 [1] [0] [] [0] [] 1 ![1, 64]
  gather_S50000x96_S800000x1_S800000x96_1_0_n_n_0_1_196_wf : GatherDims.WF S50000x96 S800000x1 S800000x96 [1] [0] [] [0] [] 1 ![1, 96]
  dot_S3200x96_S96x64_S3200x64_1_0_0_1_n_n_wf : DotDims.WF S3200x96 S96x64 S3200x64 [1] [0] [0] [1] [] []
  dot_S3200x64_S64x8_S3200x8_1_0_0_1_n_n_wf : DotDims.WF S3200x64 S64x8 S3200x8 [1] [0] [0] [1] [] []
  dot_S3200x8_S8x96_S3200x96_1_0_0_1_n_n_wf : DotDims.WF S3200x8 S8x96 S3200x96 [1] [0] [0] [1] [] []
  dot_S3200x64_S64x96_S3200x96_1_0_0_1_n_n_wf : DotDims.WF S3200x64 S64x96 S3200x96 [1] [0] [0] [1] [] []
  scatter_S50000x8x12_S800000x1_S800000x8x12_12_0_0_1_wf : ScatterDims.WF S50000x8x12 S800000x1 S800000x8x12 [1, 2] [0] [0] 1
  scatter_S50000x8x1_S800000x1_S800000x8x1_12_0_0_1_wf : ScatterDims.WF S50000x8x1 S800000x1 S800000x8x1 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x64.size a ≤ S96x64.size a
  hwx0_1 : ∀ i : grid0.Coords, EltTy.bits .f32 = 32 ∨ (Rect.block (s := S96x64) S96x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S50000x64.size a
  hwx0_4 : ∀ i : grid0.Coords, EltTy.bits .f32 = 32 ∨ (Rect.block (s := S50000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x96.size a ≤ S50000x96.size a
  hwx0_5 : ∀ i : grid0.Coords, EltTy.bits .f32 = 32 ∨ (Rect.block (s := S50000x96) S2000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x96.size a ≤ S800000x96.size a
  hwx1_0 : ∀ i : grid1.Coords, EltTy.bits .f32 = 32 ∨ (Rect.block (s := S800000x96) S3200x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S800000x64.size a
  hwx1_1 : ∀ i : grid1.Coords, EltTy.bits .f32 = 32 ∨ (Rect.block (s := S800000x64) S3200x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x96.size a ≤ S800000x96.size a
  hwx1_2 : ∀ i : grid1.Coords, EltTy.bits .f32 = 32 ∨ (Rect.block (s := S800000x96) S3200x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x64.size a ≤ S96x64.size a
  hwx1_4 : ∀ i : grid1.Coords, EltTy.bits .f32 = 32 ∨ (Rect.block (s := S96x64) S96x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x96.size a ≤ S64x96.size a
  hwx1_6 : ∀ i : grid1.Coords, EltTy.bits .f32 = 32 ∨ (Rect.block (s := S64x96) S64x96.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x96.size a ≤ S1x96.size a
  hwx1_7 : ∀ i : grid1.Coords, EltTy.bits .f32 = 32 ∨ (Rect.block (s := S1x96) S1x96.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x8.size a ≤ S64x8.size a
  hwx1_8 : ∀ i : grid1.Coords, EltTy.bits .f32 = 32 ∨ (Rect.block (s := S64x8) S64x8.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S8x96.size a ≤ S8x96.size a
  hwx1_9 : ∀ i : grid1.Coords, EltTy.bits .f32 = 32 ∨ (Rect.block (s := S8x96) S8x96.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S3200x96.size a ≤ S800000x96.size a
  hwx1_10 : ∀ i : grid1.Coords, EltTy.bits .f32 = 32 ∨ (Rect.block (s := S800000x96) S3200x96.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S3200x96.size a ≤ S800000x96.size a
  hwx1_11 : ∀ i : grid1.Coords, EltTy.bits .f32 = 32 ∨ (Rect.block (s := S800000x96) S3200x96.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S3200x8.size a ≤ S800000x8.size a
  hwx1_12 : ∀ i : grid1.Coords, EltTy.bits .f32 = 32 ∨ (Rect.block (s := S800000x8) S3200x8.size (cc1_transform_12 i) (hinb1_12 i)).WholeWords (EltTy.packing .f32)

variable [Facts₀]

def dot_S1x96_S96x64_S1x64_1_0_0_1_n_n : DotDims S1x96 S96x64 S1x64 where
  lhsContracting := [1]
  rhsContracting := [0]
  lhsNonContracting := [0]
  rhsNonContracting := [1]
  lhsBatch := []
  rhsBatch := []
  wf := dot_S1x96_S96x64_S1x64_1_0_0_1_n_n_wf
def dot_S2000x96_S96x64_S2000x64_1_0_0_1_n_n : DotDims S2000x96 S96x64 S2000x64 where
  lhsContracting := [1]
  rhsContracting := [0]
  lhsNonContracting := [0]
  rhsNonContracting := [1]
  lhsBatch := []
  rhsBatch := []
  wf := dot_S2000x96_S96x64_S2000x64_1_0_0_1_n_n_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S3200x96_S96x64_S3200x64_1_0_0_1_n_n : DotDims S3200x96 S96x64 S3200x64 where
  lhsContracting := [1]
  rhsContracting := [0]
  lhsNonContracting := [0]
  rhsNonContracting := [1]
  lhsBatch := []
  rhsBatch := []
  wf := dot_S3200x96_S96x64_S3200x64_1_0_0_1_n_n_wf
def dot_S3200x64_S64x8_S3200x8_1_0_0_1_n_n : DotDims S3200x64 S64x8 S3200x8 where
  lhsContracting := [1]
  rhsContracting := [0]
  lhsNonContracting := [0]
  rhsNonContracting := [1]
  lhsBatch := []
  rhsBatch := []
  wf := dot_S3200x64_S64x8_S3200x8_1_0_0_1_n_n_wf
def dot_S3200x8_S8x96_S3200x96_1_0_0_1_n_n : DotDims S3200x8 S8x96 S3200x96 where
  lhsContracting := [1]
  rhsContracting := [0]
  lhsNonContracting := [0]
  rhsNonContracting := [1]
  lhsBatch := []
  rhsBatch := []
  wf := dot_S3200x8_S8x96_S3200x96_1_0_0_1_n_n_wf
def dot_S3200x64_S64x96_S3200x96_1_0_0_1_n_n : DotDims S3200x64 S64x96 S3200x96 where
  lhsContracting := [1]
  rhsContracting := [0]
  lhsNonContracting := [0]
  rhsNonContracting := [1]
  lhsBatch := []
  rhsBatch := []
  wf := dot_S3200x64_S64x96_S3200x96_1_0_0_1_n_n_wf
def scatter_S50000x8x12_S800000x1_S800000x8x12_12_0_0_1 : ScatterDims S50000x8x12 S800000x1 S800000x8x12 where
  updateWindowDims := [1, 2]
  insertedWindowDims := [0]
  scatterDimsToOperandDims := [0]
  indexVectorDim := 1
  wf := scatter_S50000x8x12_S800000x1_S800000x8x12_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S96x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S2000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S2000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S3200x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S3200x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S96x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S64x96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S1x96.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_cst) S64x8.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_cst_0) S8x96.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v23_0) S3200x96.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v23_1) S3200x96.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v23_2) S3200x8.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S50000x96 : Shape := ⟨2, ![50000, 96]⟩
abbrev S800000x96 : Shape := ⟨2, ![800000, 96]⟩
abbrev S800000 : Shape := ⟨1, ![800000]⟩
abbrev S96x64 : Shape := ⟨2, ![96, 64]⟩
abbrev S96x96 : Shape := ⟨2, ![96, 96]⟩
abbrev S96 : Shape := ⟨1, ![96]⟩
abbrev S64 : Shape := ⟨1, ![64]⟩
abbrev S64x96 : Shape := ⟨2, ![64, 96]⟩
abbrev S_ : Shape := ⟨0, ![]⟩
abbrev S50000x64 : Shape := ⟨2, ![50000, 64]⟩
abbrev S50000x8x8 : Shape := ⟨3, ![50000, 8, 8]⟩
abbrev S1x96 : Shape := ⟨2, ![1, 96]⟩
abbrev S50000x8x12 : Shape := ⟨3, ![50000, 8, 12]⟩
abbrev S800000x64 : Shape := ⟨2, ![800000, 64]⟩
abbrev S1x64 : Shape := ⟨2, ![1, 64]⟩
abbrev S800000x8x8 : Shape := ⟨3, ![800000, 8, 8]⟩
abbrev S800000x1 : Shape := ⟨2, ![800000, 1]⟩
abbrev S800000x8 : Shape := ⟨2, ![800000, 8]⟩
abbrev S800000x8x1 : Shape := ⟨3, ![800000, 8, 1]⟩
abbrev S800000x8x12 : Shape := ⟨3, ![800000, 8, 12]⟩
abbrev S50000x8x1 : Shape := ⟨3, ![50000, 8, 1]⟩

abbrev nBuf : Space → Nat
  | .hbm => 97
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000x96, .f32⟩
  | .hbm, ⟨2, _⟩ => ⟨S800000, .i32⟩
  | .hbm, ⟨3, _⟩ => ⟨S800000, .i32⟩
  | .hbm, ⟨4, _⟩ => ⟨S96x64, .f32⟩
  | .hbm, ⟨5, _⟩ => ⟨S96x64, .f32⟩
  | .hbm, ⟨6, _⟩ => ⟨S96x96, .f32⟩
  | .hbm, ⟨7, _⟩ => ⟨S96, .f32⟩
  | .hbm, ⟨8, _⟩ => ⟨S96x64, .f32⟩
  | .hbm, ⟨9, _⟩ => ⟨S64, .f32⟩
  | .hbm, ⟨10, _⟩ => ⟨S64x96, .f32⟩
  | .hbm, ⟨11, _⟩ => ⟨S96, .f32⟩
  | .hbm, ⟨12, _⟩ => ⟨S_, .f32⟩
  | .hbm, ⟨13, _⟩ => ⟨S96, .f32⟩
  | .hbm, ⟨14, _⟩ => ⟨S_, .f32⟩
  | .hbm, ⟨15, _⟩ => ⟨S96, .f32⟩
  | .hbm, ⟨16, _⟩ => ⟨S96, .f32⟩
  | .hbm, ⟨17, _⟩ => ⟨S50000x96, .f32⟩
  | .hbm, ⟨18, _⟩ => ⟨S50000x64, .f32⟩
  | .hbm, ⟨19, _⟩ => ⟨S50000x8x8, .f32⟩
  | .hbm, ⟨20, _⟩ => ⟨S50000x64, .f32⟩
  | .hbm, ⟨21, _⟩ => ⟨S50000x8x8, .f32⟩
  | .hbm, ⟨22, _⟩ => ⟨S50000x96, .f32⟩
  | .hbm, ⟨23, _⟩ => ⟨S1x96, .f32⟩
  | .hbm, ⟨24, _⟩ => ⟨S50000x96, .f32⟩
  | .hbm, ⟨25, _⟩ => ⟨S50000x96, .f32⟩
  | .hbm, ⟨26, _⟩ => ⟨S50000x8x12, .f32⟩
  | .hbm, ⟨27, _⟩ => ⟨S800000x64, .f32⟩
  | .hbm, ⟨28, _⟩ => ⟨S1x64, .f32⟩
  | .hbm, ⟨29, _⟩ => ⟨S800000x64, .f32⟩
  | .hbm, ⟨30, _⟩ => ⟨S800000x64, .f32⟩
  | .hbm, ⟨31, _⟩ => ⟨S800000x8x8, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x8x8, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x8x8, .f32⟩
  | .hbm, ⟨50, _⟩ => ⟨S800000x8x8, .f32⟩
  | .hbm, ⟨51, _⟩ => ⟨S_, .f32⟩
  | .hbm, ⟨52, _⟩ => ⟨S800000x8x8, .f32⟩
  | .hbm, ⟨53, _⟩ => ⟨S800000x8x8, .f32⟩
  | .hbm, ⟨54, _⟩ => ⟨S800000x8x8, .f32⟩
  | .hbm, ⟨55, _⟩ => ⟨S_, .f32⟩
  | .hbm, ⟨56, _⟩ => ⟨S800000x8, .f32⟩
  | .hbm, ⟨57, _⟩ => ⟨S800000x8x1, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S800000x8x1, .f32⟩
  | .hbm, ⟨62, _⟩ => ⟨S800000x8x1, .f32⟩
  | .hbm, ⟨63, _⟩ => ⟨S_, .f32⟩
  | .hbm, ⟨64, _⟩ => ⟨S800000x8x1, .f32⟩
  | .hbm, ⟨65, _⟩ => ⟨S800000x8x1, .f32⟩
  | .hbm, ⟨66, _⟩ => ⟨S800000x8x1, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x8x12, .f32⟩
  | .hbm, ⟨76, _⟩ => ⟨S800000x8x12, .f32⟩
  | .hbm, ⟨77, _⟩ => ⟨S800000x8x12, .f32⟩
  | .hbm, ⟨78, _⟩ => ⟨S_, .f32⟩
  | .hbm, ⟨79, _⟩ => ⟨S50000x8x12, .f32⟩
  | .hbm, ⟨80, _⟩ => ⟨S800000x1, .i32⟩
  | .hbm, ⟨81, _⟩ => ⟨S50000x8x12, .f32⟩
  | .hbm, ⟨82, _⟩ => ⟨S_, .f32⟩
  | .hbm, ⟨83, _⟩ => ⟨S50000x8x1, .f32⟩
  | .hbm, ⟨84, _⟩ => ⟨S800000x1, .i32⟩
  | .hbm, ⟨85, _⟩ => ⟨S50000x8x1, .f32⟩
  | .hbm, ⟨86, _⟩ => ⟨S_, .f32⟩
  | .hbm, ⟨87, _⟩ => ⟨S50000x8x1, .f32⟩
  | .hbm, ⟨88, _⟩ => ⟨S50000x8x1, .f32⟩
  | .hbm, ⟨89, _⟩ => ⟨S50000x8x12, .f32⟩
  | .hbm, ⟨90, _⟩ => ⟨S50000x8x12, .f32⟩
  | .hbm, ⟨91, _⟩ => ⟨S50000x96, .f32⟩
  | .hbm, ⟨92, _⟩ => ⟨S800000x64, .f32⟩
  | .hbm, ⟨93, _⟩ => ⟨S800000x96, .f32⟩
  | .hbm, ⟨94, _⟩ => ⟨S1x96, .f32⟩
  | .hbm, ⟨95, _⟩ => ⟨S800000x96, .f32⟩
  | .hbm, ⟨96, _⟩ => ⟨S800000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_cst_7 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_c_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]

class Facts₀ : Prop where
  reducesTo_S50000x96_S96_d0 : S50000x96.ReducesTo [0] S96
  h_S_ : 0 < S_.numel
  bcast_S_S96 : S_.BroadcastsInDim S96 (![] : Fin 0 → Fin S96.rank)
  bcast_S96_S50000x96_1 : S96.BroadcastsInDim S50000x96 (![1] : Fin 1 → Fin S50000x96.rank)
  shapeCasts_S50000x64_S50000x8x8 : S50000x64.ShapeCasts S50000x8x8
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S50000x96_S50000x8x12 : S50000x96.ShapeCasts S50000x8x12
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  shapeCasts_S800000x64_S800000x8x8 : S800000x64.ShapeCasts S800000x8x8
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x8 : S_.BroadcastsInDim S800000x8x8 (![] : Fin 0 → Fin S800000x8x8.rank)
  reducesTo_S800000x8x8_S800000x8_d2 : S800000x8x8.ReducesTo [2] S800000x8
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x12_0_1_2 : S800000x8x1.BroadcastsInDim S800000x8x12 (![0, 1, 2] : Fin 3 → Fin S800000x8x12.rank)
  bcast_S_S50000x8x12 : S_.BroadcastsInDim S50000x8x12 (![] : Fin 0 → Fin S50000x8x12.rank)
  bcast_S_S50000x8x1 : S_.BroadcastsInDim S50000x8x1 (![] : Fin 0 → Fin S50000x8x1.rank)
  bcast_S50000x8x1_S50000x8x12_0_1_2 : S50000x8x1.BroadcastsInDim S50000x8x12 (![0, 1, 2] : Fin 3 → Fin S50000x8x12.rank)
  shapeCasts_S50000x8x12_S50000x96 : S50000x8x12.ShapeCasts S50000x96
  shapeCasts_S800000x8x8_S800000x64 : S800000x8x8.ShapeCasts S800000x64
  bcast_S1x96_S800000x96_0_1 : S1x96.BroadcastsInDim S800000x96 (![0, 1] : Fin 2 → Fin S800000x96.rank)
  dot_S50000x96_S96x64_S50000x64_1_0_0_1_n_n_wf : DotDims.WF S50000x96 S96x64 S50000x64 [1] [0] [0] [1] [] []
  dot_S50000x96_S96x96_S50000x96_1_0_0_1_n_n_wf : DotDims.WF S50000x96 S96x96 S50000x96 [1] [0] [0] [1] [] []
  dot_S800000x96_S96x64_S800000x64_1_0_0_1_n_n_wf : DotDims.WF S800000x96 S96x64 S800000x64 [1] [0] [0] [1] [] []
  gather_S50000x8x8_S800000x1_S800000x8x8_12_0_n_n_0_1_188_wf : GatherDims.WF S50000x8x8 S800000x1 S800000x8x8 [1, 2] [0] [] [0] [] 1 ![1, 8, 8]
  gather_S50000x8x12_S800000x1_S800000x8x12_12_0_n_n_0_1_1812_wf : GatherDims.WF S50000x8x12 S800000x1 S800000x8x12 [1, 2] [0] [] [0] [] 1 ![1, 8, 12]
  scatter_S50000x8x12_S800000x1_S800000x8x12_12_0_0_1_wf : ScatterDims.WF S50000x8x12 S800000x1 S800000x8x12 [1, 2] [0] [0] 1
  scatter_S50000x8x1_S800000x1_S800000x8x1_12_0_0_1_wf : ScatterDims.WF S50000x8x1 S800000x1 S800000x8x1 [1, 2] [0] [0] 1
  dot_S800000x64_S64x96_S800000x96_1_0_0_1_n_n_wf : DotDims.WF S800000x64 S64x96 S800000x96 [1] [0] [0] [1] [] []

variable [Facts₀]

def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf
def gather_S50000x8x8_S800000x1_S800000x8x8_12_0_n_n_0_1_188 : GatherDims S50000x8x8 S800000x1 S800000x8x8 where
  offsetDims := [1, 2]
  collapsedSliceDims := [0]
  operandBatchingDims := []
  startIndicesBatchingDims := []
  startIndexMap := [0]
  indexVectorDim := 1
  sliceSizes := ![1, 8, 8]
  wf := gather_S50000x8x8_S800000x1_S800000x8x8_12_0_n_n_0_1_188_wf
def gather_S50000x8x12_S800000x1_S800000x8x12_12_0_n_n_0_1_1812 : GatherDims S50000x8x12 S800000x1 S800000x8x12 where
  offsetDims := [1, 2]
  collapsedSliceDims := [0]
  operandBatchingDims := []
  startIndicesBatchingDims := []
  startIndexMap := [0]
  indexVectorDim := 1
  sliceSizes := ![1, 8, 12]
  wf := gather_S50000x8x12_S800000x1_S800000x8x12_12_0_n_n_0_1_1812_wf
def scatter_S50000x8x12_S800000x1_S800000x8x12_12_0_0_1 : ScatterDims S50000x8x12 S800000x1 S800000x8x12 where
  updateWindowDims := [1, 2]
  insertedWindowDims := [0]
  scatterDimsToOperandDims := [0]
  indexVectorDim := 1
  wf := scatter_S50000x8x12_S800000x1_S800000x8x12_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf
def dot_S800000x64_S64x96_S800000x96_1_0_0_1_n_n : DotDims S800000x64 S64x96 S800000x96 where
  lhsContracting := [1]
  rhsContracting := [0]
  lhsNonContracting := [0]
  rhsNonContracting := [1]
  lhsBatch := []
  rhsBatch := []
  wf := dot_S800000x64_S64x96_S800000x96_1_0_0_1_n_n_wf

class Facts : Prop extends Facts₀ where

variable [Facts]
-- ==== Proof.RunK.lean ====
/-
  The idealized kernel's run with its results named: every weakly fair execution of the program terminates without
  a fault, and the two result buffers end holding what the last stretch of host operations computes from the
  contents region 1 leaves, which region 1 computes from what the middle stretch leaves, and so on back to the
  launch memory (the fold `W5` of the generated frame); the argument arrays end as launched.
-/
import proofs.«158694_j80942953660859_2_alg».proof.Proof.Gen.KernelIdeal.Frame

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the two results at the last boundary's contents and the arguments as launched: the launch over the
    program's five segments, every unscoped buffer read against the final state. -/
theorem run_results : θ_run defs (onTc (τ := τ) (main (F := F))) ⟨m, fun _ => 0, ρ⟩ (fun r => ∀ c : Dev nD,
      r.2.mem ((c.tc : Thread nD τ).loc main_v36) = W5 m ρ c (Proc.devRef .tc main_v36)
      ∧ r.2.mem ((c.tc : Thread nD τ).loc main_v23_0) = W5 m ρ c (Proc.devRef .tc main_v23_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v36 (by decide)),
       h c _ (mem_uc main_v23_0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.KernelIdeal.Run

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibIndexed.lean ====
/-
  Rows taken and rows accumulated by run-time indices, entry by entry.

  Taking rows of a matrix by an integer column of indices reads, at result entry (r, c), the matrix at row
  "index r, read as a signed integer and clamped into the matrix's rows" and column c; taking entries of a
  flat array is the same without the column. Accumulating rows into a matrix by an integer column of indices
  adds update entry (r, c) to entry (index r, c) of the matrix when index r, read as a signed integer and NOT
  clamped, is one of the matrix's rows, and drops it otherwise; so on the extended reals every entry of the
  result is the entry it had plus the sum of the update entries whose index names its row.
-/
import Idealize.ShloMosaic.Lib.ValueIdx
import Idealize.ShloMosaic.Lib.Pipeline.Value
import Idealize.ShloMosaic.PureOps.Ideal.Laws

noncomputable section

open scoped BigOperators

namespace Cert.Indexed

open Idealize.ShloMosaic Idealize.ShloMosaic.ValueIdx

variable {α : Type}

/-- A word read as a signed integer and clamped into the rows 0 … N − 1. -/
def clampRow (N : Nat) (hN : 0 < N) {w : Nat} (v : BitVec w) : Fin N := ⟨min v.toInt.toNat (N - 1), by omega⟩

/-- A word, read as a signed integer and not clamped, names the row i. -/
def Names {N w : Nat} (v : BitVec w) (i : Fin N) : Prop := v.toInt = (i.val : ℤ)

instance {N w : Nat} (v : BitVec w) (i : Fin N) : Decidable (Names v i) := by unfold Names; infer_instance

/-! ## Taking entries of a flat array -/

/-- The dimension numbers of x[idx] for a flat array of N entries and a column of M indices. -/
abbrev flatGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry r of the taken array is the array at index r, clamped. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatGather N M wf) x idx y = x (ix1 (clampRow N hN (idx (ix2 (y 0) (0 : Fin 1))))) := by
  unfold Host.gather
  congr 1
  funext a
  obtain rfl : a = 0 := Subsingleton.elim _ _
  refine Fin.ext ?_
  show (flatGather N M wf).start y idx 0 + (flatGather N M wf).batchCoord y 0 + (flatGather N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N M wf).startIndexMap from List.mem_singleton.mpr rfl)]
  have hsi : (flatGather N M wf).siIdx y ⟨List.idxOf (0 : Fin 1) (flatGather N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-! ## Taking rows of a matrix -/

/-- The dimension numbers of x[idx] for a matrix of N rows of C and a column of M indices. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Entry (r, c) of the taken rows is the matrix at row "index r, clamped" and column c. -/
theorem rowGather_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowGather N C M wf) x idx y = x (ix2 (clampRow N hN (idx (ix2 (y 0) (0 : Fin 1)))) (y 1)) := by
  unfold Host.gather
  congr 1
  funext a
  refine Fin.ext ?_
  have key : ∀ a : Fin 2, (rowGather N C M wf).start y idx a + (rowGather N C M wf).batchCoord y a
      + (rowGather N C M wf).offCoord y a = ((ix2 (clampRow N hN (idx (ix2 (y 0) (0 : Fin 1)))) (y 1) :
        (⟨2, ![N, C]⟩ : Shape).Idx) a).val := by
    refine Fin.forall_fin_two.2 ⟨?_, ?_⟩
    · rw [GatherDims.batchCoord_eq_zero _ _ _ List.not_mem_nil,
        GatherDims.offCoord_eq_zero _ _ _ (fun h => ((GatherDims.mem_sKept _ _).mp h).1 (List.mem_singleton.mpr rfl))]
      simp only [Nat.add_zero]
      unfold GatherDims.start
      rw [dif_pos (show (0 : Fin 2) ∈ (rowGather N C M wf).startIndexMap from List.mem_singleton.mpr rfl)]
      have hsi : (rowGather N C M wf).siIdx y ⟨List.idxOf (0 : Fin 2) (rowGather N C M wf).startIndexMap,
          List.idxOf_lt_length_iff.2 (List.mem_singleton.mpr rfl)⟩ = ix2 (y 0) (0 : Fin 1) := by
        funext b; refine Fin.ext ?_
        match b with
        | ⟨0, _⟩ => rfl
        | ⟨1, _⟩ => rfl
      rw [hsi]
      rfl
    · rw [GatherDims.batchCoord_eq_zero _ _ _ List.not_mem_nil]
      unfold GatherDims.start
      rw [dif_neg (show (1 : Fin 2) ∉ ([0] : List (Fin 2)) from by decide)]
      simp only [Nat.add_zero, Nat.zero_add]
      unfold GatherDims.offCoord
      rw [dif_pos ((GatherDims.mem_sKept (rowGather N C M wf) 1).mpr ⟨(show (1 : Fin 2) ∉ ([0] : List (Fin 2)) from by decide), List.not_mem_nil⟩)]
      rfl
  exact key a

/-! ## Sums over the entries of a column and of a matrix, by coordinates -/

/-- A flat index set is its one coordinate's range. -/
def idxEquiv1 {n : Nat} : (⟨1, ![n]⟩ : Shape).Idx ≃ Fin n where
  toFun i := i 0
  invFun r := ix1 r
  left_inv i := (eq_ix1 i).symm
  right_inv _ := rfl

/-- A sum over a flat index set is the sum over its coordinate. -/
theorem sum_idx1 {A : Type*} [AddCommMonoid A] {n : Nat} (f : (⟨1, ![n]⟩ : Shape).Idx → A) :
    ∑ i, f i = ∑ r : Fin n, f (ix1 r) := by
  rw [← Equiv.sum_comp (idxEquiv1 (n := n)).symm f]; rfl

/-- The flat entries whose coordinate satisfies P, summed: the sum over the coordinates that satisfy P. -/
theorem sum_filter_idx1 {A : Type*} [AddCommMonoid A] {n : Nat} (P : Fin n → Prop) [DecidablePred P]
    [DecidablePred fun j : (⟨1, ![n]⟩ : Shape).Idx => P (j 0)] (f : (⟨1, ![n]⟩ : Shape).Idx → A) :
    ∑ j ∈ Finset.univ.filter (fun j : (⟨1, ![n]⟩ : Shape).Idx => P (j 0)), f j
      = ∑ r ∈ Finset.univ.filter P, f (ix1 r) := by
  rw [Finset.sum_filter, Finset.sum_filter, sum_idx1]
  exact Finset.sum_congr rfl fun r _ => by congr

/-- The entries of a matrix in column c whose row satisfies P, summed: the sum over the rows that satisfy P. -/
theorem sum_filter_idx2 {A : Type*} [AddCommMonoid A] {n C : Nat} (P : Fin n → Prop) [DecidablePred P] (c : Fin C)
    [DecidablePred fun j : (⟨2, ![n, C]⟩ : Shape).Idx => P (j 0) ∧ (j 1).val = c.val] (f : (⟨2, ![n, C]⟩ : Shape).Idx → A) :
    ∑ j ∈ Finset.univ.filter (fun j : (⟨2, ![n, C]⟩ : Shape).Idx => P (j 0) ∧ (j 1).val = c.val), f j
      = ∑ r ∈ Finset.univ.filter P, f (ix2 r c) := by
  rw [Finset.sum_filter, Finset.sum_filter, sum_idx2]
  refine Finset.sum_congr rfl fun r _ => ?_
  have e : ∀ b : Fin C, (P ((ix2 r b : (⟨2, ![n, C]⟩ : Shape).Idx) 0)
      ∧ ((ix2 r b : (⟨2, ![n, C]⟩ : Shape).Idx) 1).val = c.val) ↔ (P r ∧ b = c) :=
    fun b => ⟨fun h => ⟨h.1, Fin.ext h.2⟩, fun h => ⟨h.1, congrArg Fin.val h.2⟩⟩
  simp only [e]
  by_cases hP : P r
  · simp [hP]
  · simp [hP]

/-! ## Accumulating entries into a flat array -/

/-- The dimension numbers of x.at[idx].add(u) for a flat array of N entries and a column of M indices. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update entry r lands on entry i exactly when index r names i. -/
theorem flatScatter_lands {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : (⟨1, ![N]⟩ : Shape).Idx) :
    (flatScatter N M wf).resultIdx? j idx = some i ↔ Names (idx (ix2 (j 0) (0 : Fin 1))) (i 0) := by
  have hs : (flatScatter N M wf).start j idx 0 = (idx (ix2 (j 0) (0 : Fin 1))).toInt := by
    unfold ScatterDims.start
    rw [dif_pos (show (0 : Fin 1) ∈ ([0] : List (Fin 1)) from List.mem_singleton.mpr rfl)]
    have hsi : (flatScatter N M wf).siIdx j ⟨List.idxOf (0 : Fin 1) (flatScatter N M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hw : (flatScatter N M wf).window j 0 = 0 := by
    unfold ScatterDims.window
    rw [dif_neg (by simp [ScatterDims.sKept, Shape.kept])]
  have hi : (i 0).val < N := (i 0).isLt
  have hsz : ((⟨1, ![N]⟩ : Shape).size 0 : ℤ) = (N : ℤ) := rfl
  unfold ScatterDims.resultIdx?
  split
  · rename_i h
    have h0 := h 0
    rw [hs, hw] at h0
    constructor
    · intro e
      have e0 : ((flatScatter N M wf).start j idx 0 + ((flatScatter N M wf).window j 0 : ℤ)).toNat = (i 0).val :=
        congrArg (fun f : (⟨1, ![N]⟩ : Shape).Idx => (f 0).val) (Option.some.inj e)
      rw [hs, hw] at e0
      unfold Names; omega
    · intro hn
      refine congrArg some (funext fun a => ?_)
      obtain rfl : a = 0 := Subsingleton.elim _ _
      refine Fin.ext ?_
      show ((flatScatter N M wf).start j idx 0 + ((flatScatter N M wf).window j 0 : ℤ)).toNat = (i 0).val
      rw [hs, hw]; unfold Names at hn; omega
  · rename_i h
    constructor
    · intro e; cases e
    · intro hn
      exfalso; apply h; intro a
      obtain rfl : a = 0 := Subsingleton.elim _ _
      rw [hs, hw, hsz]
      unfold Names at hn
      constructor <;> omega

/-- On the extended reals: entry i of the result is the entry it had plus the sum of the updates whose index names i. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd (flatScatter N M wf) x idx upd i
      = x i + ∑ r ∈ Finset.univ.filter (fun r : Fin M => Names (idx (ix2 r (0 : Fin 1))) (i 0)), upd (ix1 r) := by
  unfold Ideal.hostScatterAdd
  congr 1
  rw [Finset.filter_congr (fun j _ => flatScatter_lands wf idx j i)]
  exact sum_filter_idx1 (fun r : Fin M => Names (idx (ix2 r (0 : Fin 1))) (i 0)) upd

/-! ## Accumulating rows into a matrix -/

/-- The dimension numbers of x.at[idx].add(u) for a matrix of N rows of C and a column of M indices. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (r, c) lands on entry (i, c') exactly when index r names i and c is c'. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i : (⟨2, ![N, C]⟩ : Shape).Idx) :
    (rowScatter N C M wf).resultIdx? j idx = some i
      ↔ Names (idx (ix2 (j 0) (0 : Fin 1))) (i 0) ∧ (j 1).val = (i 1).val := by
  have hs0 : (rowScatter N C M wf).start j idx 0 = (idx (ix2 (j 0) (0 : Fin 1))).toInt := by
    unfold ScatterDims.start
    rw [dif_pos (show (0 : Fin 2) ∈ ([0] : List (Fin 2)) from List.mem_singleton.mpr rfl)]
    have hsi : (rowScatter N C M wf).siIdx j ⟨List.idxOf (0 : Fin 2) (rowScatter N C M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hs1 : (rowScatter N C M wf).start j idx 1 = 0 := by
    unfold ScatterDims.start
    rw [dif_neg (show (1 : Fin 2) ∉ ([0] : List (Fin 2)) from by decide)]
  have hw0 : (rowScatter N C M wf).window j 0 = 0 := by
    unfold ScatterDims.window
    rw [dif_neg (by simp [ScatterDims.sKept, Shape.kept])]
  have hw1 : (rowScatter N C M wf).window j 1 = (j 1).val := by
    unfold ScatterDims.window
    rw [dif_pos (by simp [ScatterDims.sKept, Shape.kept])]
    rfl
  have hi0 : (i 0).val < N := idx2_lt0 i
  have hi1 : (i 1).val < C := idx2_lt1 i
  have hj1 : (j 1).val < C := idx2_lt1 j
  have hsz0 : ((⟨2, ![N, C]⟩ : Shape).size 0 : ℤ) = (N : ℤ) := rfl
  have hsz1 : ((⟨2, ![N, C]⟩ : Shape).size 1 : ℤ) = (C : ℤ) := rfl
  unfold ScatterDims.resultIdx?
  split
  · rename_i h
    have h0 := h 0
    have h1 := h 1
    rw [hs0, hw0] at h0
    rw [hs1, hw1] at h1
    constructor
    · intro e
      have e0 : ((rowScatter N C M wf).start j idx 0 + ((rowScatter N C M wf).window j 0 : ℤ)).toNat = (i 0).val :=
        congrArg (fun f : (⟨2, ![N, C]⟩ : Shape).Idx => (f 0).val) (Option.some.inj e)
      have e1 : ((rowScatter N C M wf).start j idx 1 + ((rowScatter N C M wf).window j 1 : ℤ)).toNat = (i 1).val :=
        congrArg (fun f : (⟨2, ![N, C]⟩ : Shape).Idx => (f 1).val) (Option.some.inj e)
      rw [hs0, hw0] at e0
      rw [hs1, hw1] at e1
      unfold Names; constructor <;> omega
    · rintro ⟨hn, hc⟩
      refine congrArg some (funext fun a => Fin.ext ?_)
      have key : ∀ a : Fin 2, ((rowScatter N C M wf).start j idx a + ((rowScatter N C M wf).window j a : ℤ)).toNat
          = (i a).val := by
        refine Fin.forall_fin_two.2 ⟨?_, ?_⟩
        · rw [hs0, hw0]; unfold Names at hn; omega
        · rw [hs1, hw1]; omega
      exact key a
  · rename_i h
    constructor
    · intro e; cases e
    · rintro ⟨hn, hc⟩
      exfalso; apply h
      unfold Names at hn
      refine Fin.forall_fin_two.2 ⟨?_, ?_⟩
      · rw [hs0, hw0, hsz0]; constructor <;> omega
      · rw [hs1, hw1, hsz1]; constructor <;> omega

/-- On the extended reals: entry (i, c) of the result is the entry it had plus the sum over the update rows whose index
    names i of their entry in column c. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (p : Fin N) (c : Fin C) :
    Ideal.hostScatterAdd (rowScatter N C M wf) x idx upd (ix2 p c)
      = x (ix2 p c) + ∑ r ∈ Finset.univ.filter (fun r : Fin M => Names (idx (ix2 r (0 : Fin 1))) p), upd (ix2 r c) := by
  unfold Ideal.hostScatterAdd
  congr 1
  rw [Finset.filter_congr (fun j _ => rowScatter_lands wf idx j (ix2 p c))]
  exact sum_filter_idx2 (fun r : Fin M => Names (idx (ix2 r (0 : Fin 1))) p) c upd

/-! ## The same readings at an entry named by its coordinates -/

/-- Entry r of the taken array, r a coordinate. -/
theorem flatGather_at {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (r : Fin M) :
    Host.gather (flatGather N M wf) x idx (ix1 r) = x (ix1 (clampRow N hN (idx (ix2 r (0 : Fin 1))))) :=
  flatGather_apply hN wf x idx (ix1 r)

/-- Entry (r, c) of the taken rows, r and c coordinates. -/
theorem rowGather_at {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (r : Fin M) (c : Fin C) :
    Host.gather (rowGather N C M wf) x idx (ix2 r c) = x (ix2 (clampRow N hN (idx (ix2 r (0 : Fin 1)))) c) :=
  rowGather_apply hN wf x idx (ix2 r c)

/-- Entry i of the accumulated flat array, i a coordinate. -/
theorem flatScatterAdd_at {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (flatScatter N M wf) x idx upd (ix1 i)
      = x (ix1 i) + ∑ r ∈ Finset.univ.filter (fun r : Fin M => Names (idx (ix2 r (0 : Fin 1))) i), upd (ix1 r) :=
  flatScatterAdd_apply wf x idx upd (ix1 i)

end Cert.Indexed

end
-- ==== Proof.Consts.lean ====
/-
  The float words this kernel and its reference spell, as the extended reals they denote: the word for one
  (the entries of the two selector matrices), and the scale word, a nonzero real, so that dividing by it is
  multiplying by its inverse and commutes with a product on the left.
-/
import Idealize.ShloMosaic.PureOps.Ideal
import Idealize.ShloMosaic.PureOps.Ideal.Laws

noncomputable section

namespace Cert.Consts

open Idealize.ShloMosaic

/-- The word of `1.0` denotes `1`. -/
theorem ofBits_one : Ideal.ofBits .f32 0x3F800000#32 = 1 := by
  simp [Ideal.ofBits, Ideal.ieee, -EReal.coe_mul]; norm_num

/-- The scale word (the single-precision square root of eight) denotes a real number. -/
theorem ofBits_scale : Ideal.ofBits .f32 0x403504F3#32 = ((11863283 / 4194304 : ℝ) : EReal) := by
  simp [Ideal.ofBits, Ideal.ieee, -EReal.coe_mul]; norm_num

/-- Dividing a product by a nonzero real divides its right factor: both are the product with the inverse, and the
    product of extended reals is associative. -/
theorem div_mul_left (a b : EReal) {r : ℝ} (hr : r ≠ 0) :
    Ideal.div (a * b) (r : EReal) = a * Ideal.div b (r : EReal) := by
  rw [Ideal.div_coe hr, Ideal.div_coe hr, mul_assoc]

/-- The same at the scale word. -/
theorem div_scale_mul_left (a b : EReal) :
    Ideal.div (a * b) (Ideal.ofBits .f32 0x403504F3#32) = a * Ideal.div b (Ideal.ofBits .f32 0x403504F3#32) := by
  rw [ofBits_scale]
  exact div_mul_left a b (by norm_num)

end Cert.Consts

end
-- ==== Proof.Spec.lean ====
/-
  Edge attention by a low-rank key–query product, entry by entry on the extended reals.

  For every edge, the key row of its source node is multiplied entry by entry with one query row (the same for
  every edge, scaled down by a constant) and with the edge's own projected features: the score, 64 entries in 8
  groups of 8. A group's entries are summed, the sum is cut to an interval and exponentiated: the gate, one number
  per group. The gate of group a multiplies the 12 value entries 12a … 12a+11 of the source node's value row.
  All of these are functions of ONE row of each per-edge matrix, so computed on a block of rows they give the rows
  of the whole. Also here: summing a row against a 0/1 matrix that selects a group is summing the group, and
  multiplying a row of gates by the 0/1 matrix that repeats each gate 12 times is reading the gate of the entry's
  group; both hold at infinite entries too, because an infinite entry times zero is zero on the extended reals.
-/
import Idealize.ShloMosaic.Lib.ValueIdx
import Idealize.ShloMosaic.PureOps.Ideal.Laws
import proofs.«158694_j80942953660859_2_alg».proof.Proof.LibDense
import proofs.«158694_j80942953660859_2_alg».proof.Proof.LibIndexed
import proofs.«158694_j80942953660859_2_alg».proof.Proof.Consts

noncomputable section

open scoped BigOperators

namespace Cert.Attn

open Idealize.ShloMosaic Idealize.ShloMosaic.ValueIdx Cert.Dense Cert.Indexed

variable {M N C : ℕ}

/-- The scale: the word of the single-precision square root of eight. -/
def scale : EReal := Ideal.ofBits .f32 0x403504F3#32
/-- The lower cut, the word of −5. -/
def lo : EReal := Ideal.ofBits .f32 0xC0A00000#32
/-- The upper cut, the word of 5. -/
def hi : EReal := Ideal.ofBits .f32 0x40A00000#32

/-- Column 8a + r of 64: entry r of group a. -/
def col8 (a r : Fin 8) : Fin 64 := ⟨8 * a.val + r.val, by omega⟩
/-- The group of 12 that column j of 96 lies in. -/
def head12 (j : Fin 96) : Fin 8 := ⟨j.val / 12, by omega⟩
/-- Column 12a + d of 96: entry d of group a. -/
def col12 (a : Fin 8) (d : Fin 12) : Fin 96 := ⟨12 * a.val + d.val, by omega⟩

theorem head12_col12 (a : Fin 8) (d : Fin 12) : head12 (col12 a d) = a :=
  Fin.ext (by show (12 * a.val + d.val) / 12 = a.val; omega)

/-- Rows of a matrix taken by a column of indices: row r of the result is the row the r-th index names, the index
    read as a signed integer and clamped into the matrix's rows. -/
def take (hN : 0 < N) (X : Mat N C) (idx : IVec ⟨2, ![M, 1]⟩ 32) : Mat M C :=
  fun i => X (ix2 (clampRow N hN (idx (ix2 (i 0) (0 : Fin 1)))) (i 1))

/-- The score: key entry · (query entry / scale) · projected edge entry. -/
def score (ks : Mat M 64) (qr : Mat 1 64) (pj : Mat M 64) : Mat M 64 :=
  fun i => ks i * Ideal.div (qr (ix2 (0 : Fin 1) (i 1))) scale * pj i

/-- The gate: the exponential of a group's summed score cut to [lo, hi]. -/
def gate (sc : Mat M 64) : Mat M 8 :=
  fun i => Ideal.exp (min hi (max lo (∑ r : Fin 8, sc (ix2 (i 0) (col8 (i 1) r)))))

/-- The gated values: value entry (e, j) times the gate of j's group. -/
def gated (s : Mat M 8) (v : Mat M 96) : Mat M 96 :=
  fun i => s (ix2 (i 0) (head12 (i 1))) * v i

/-- A row of n numbers as a matrix of one row. -/
def asRow {n : ℕ} (b : Row n) : Mat 1 n := fun i => b (ix1 (i 1))

/-- A three-axis array of extended reals. -/
abbrev Cube (a b c : ℕ) : Type := (⟨3, ![a, b, c]⟩ : Shape).Idx → EReal

/-- A matrix of 96 columns as 8 groups of 12: entry (e, a, d) is entry (e, 12a + d). -/
def split12 (X : Mat M 96) : Cube M 8 12 := fun i => X (ix2 (i 0) (col12 (i 1) (i 2)))

/-- A matrix of 8 columns with a third axis of length one. -/
def split1 (S : Mat M 8) : Cube M 8 1 := fun i => S (ix2 (i 0) (i 1))

/-- A matrix of 64 columns as 8 groups of 8: entry (e, a, r) is entry (e, 8a + r). -/
def split8 (X : Mat M 64) : Cube M 8 8 := fun i => X (ix2 (i 0) (col8 (i 1) (i 2)))

/-! ## Rows: each of the three is a function of one row of its per-edge operands -/

theorem score_rows {M' : ℕ} (ks : Mat M' 64) (pj : Mat M' 64) (bks bpj : Mat M 64) (qr : Mat 1 64) (ρ : Fin M → Fin M')
    (hk : ∀ p c, bks (ix2 p c) = ks (ix2 (ρ p) c)) (hp : ∀ p c, bpj (ix2 p c) = pj (ix2 (ρ p) c)) (p : Fin M) (c : Fin 64) :
    score bks qr bpj (ix2 p c) = score ks qr pj (ix2 (ρ p) c) := by
  show bks (ix2 p c) * Ideal.div (qr (ix2 (0 : Fin 1) c)) scale * bpj (ix2 p c)
    = ks (ix2 (ρ p) c) * Ideal.div (qr (ix2 (0 : Fin 1) c)) scale * pj (ix2 (ρ p) c)
  rw [hk, hp]

theorem gate_rows {M' : ℕ} (sc : Mat M' 64) (bsc : Mat M 64) (ρ : Fin M → Fin M')
    (h : ∀ p c, bsc (ix2 p c) = sc (ix2 (ρ p) c)) (p : Fin M) (a : Fin 8) :
    gate bsc (ix2 p a) = gate sc (ix2 (ρ p) a) := by
  show Ideal.exp (min hi (max lo (∑ r : Fin 8, bsc (ix2 p (col8 a r)))))
    = Ideal.exp (min hi (max lo (∑ r : Fin 8, sc (ix2 (ρ p) (col8 a r)))))
  simp only [h]

theorem gated_rows {M' : ℕ} (s : Mat M' 8) (v : Mat M' 96) (bs : Mat M 8) (bv : Mat M 96) (ρ : Fin M → Fin M')
    (hs : ∀ p a, bs (ix2 p a) = s (ix2 (ρ p) a)) (hv : ∀ p j, bv (ix2 p j) = v (ix2 (ρ p) j)) (p : Fin M) (j : Fin 96) :
    gated bs bv (ix2 p j) = gated s v (ix2 (ρ p) j) := by
  show bs (ix2 p (head12 j)) * bv (ix2 p j) = s (ix2 (ρ p) (head12 j)) * v (ix2 (ρ p) j)
  rw [hs, hv]

/-! ## The two 0/1 matrices -/

/-- A row summed against the matrix that selects group a is the sum of the group's entries. -/
theorem sum_select (x : Fin 64 → EReal) (a : Fin 8) :
    ∑ c : Fin 64, x c * (if c.val / 8 = a.val then (1 : EReal) else 0) = ∑ r : Fin 8, x (col8 a r) := by
  have h1 : ∀ c : Fin 64, x c * (if c.val / 8 = a.val then (1 : EReal) else 0) = if c.val / 8 = a.val then x c else 0 := by
    intro c; split
    · exact mul_one _
    · exact mul_zero _
  simp only [h1]
  rw [← Finset.sum_filter]
  refine (Finset.sum_bij (fun (r : Fin 8) _ => col8 a r) ?_ ?_ ?_ ?_).symm
  · intro r _
    refine Finset.mem_filter.mpr ⟨Finset.mem_univ _, ?_⟩
    show (8 * a.val + r.val) / 8 = a.val
    omega
  · intro r1 _ r2 _ h
    have : 8 * a.val + r1.val = 8 * a.val + r2.val := congrArg Fin.val h
    exact Fin.ext (by omega)
  · intro c hc
    have hc' : c.val / 8 = a.val := (Finset.mem_filter.mp hc).2
    refine ⟨⟨c.val % 8, Nat.mod_lt _ (by norm_num)⟩, Finset.mem_univ _, Fin.ext ?_⟩
    show 8 * a.val + c.val % 8 = c.val
    omega
  · intro r _; rfl

/-- A row of gates multiplied by the matrix that repeats each gate over its group of 12 is the gate of the entry's
    group. -/
theorem sum_repeat (s : Fin 8 → EReal) (j : Fin 96) :
    ∑ a : Fin 8, s a * (if j.val / 12 = a.val then (1 : EReal) else 0) = s (head12 j) := by
  rw [Finset.sum_eq_single (head12 j)]
  · rw [if_pos (show j.val / 12 = (head12 j).val from rfl), mul_one]
  · intro a _ ha
    rw [if_neg (fun h => ha (Fin.ext h.symm)), mul_zero]
  · intro h; exact absurd (Finset.mem_univ _) h

/-- The reference divides the product of key and query entries; the kernel divides the query entry first. -/
theorem div_scale_left (a b : EReal) : Ideal.div (a * b) scale = a * Ideal.div b scale :=
  Cert.Consts.div_scale_mul_left a b

end Cert.Attn

end
-- ==== Proof.Body.lean ====
/-
  What one grid point of each region writes, as functions of the blocks it reads.

  Region 0 on a block of node rows: the key block is the block times the key weights, the value block the block
  times the value weights plus the bias row. Region 1 on a block of edge rows: the score block from the block of
  gathered key rows, the query row and the block's projected edge features; the gate block from the score block,
  read through the 0/1 matrix that selects a group; the gated value block through the 0/1 matrix that repeats a
  gate over its group; the edge output, the score block times the output weights plus the bias row.
-/
import proofs.«158694_j80942953660859_2_alg».proof.Proof.Gen.KernelIdeal.Frame
import proofs.«158694_j80942953660859_2_alg».proof.Proof.Spec
import Idealize.ShloMosaic.Lib.ValueLayout

set_option maxRecDepth 16384

noncomputable section

open scoped BigOperators

namespace Cert.KernelIdeal.Body

open Idealize.ShloMosaic Idealize.ShloMosaic.ValueIdx Cert.KernelIdeal Cert.KernelIdeal.Gen Cert.Dense Cert.Attn

theorem hz : (![0, 0] : Fin 2 → Nat) = fun _ => 0 := funext fun a => by fin_cases a <;> rfl

/-! ## Region 0 -/

/-- The key block: the block of node rows times the key weights. -/
theorem out0_4_eq (x0 : Vec Ideal S2000x96 .f32) (x1 : Vec Ideal S96x64 .f32) (x2 : Vec Ideal S96x96 .f32) (x3 : Vec Ideal S1x96 .f32) :
    out0_4 (F := Ideal) x0 x1 x2 x3 = mm (M := 2000) (K := 96) (N := 64) x0 x1 := by
  unfold out0_4
  rw [View.canon_unit_zero hz]
  simp only [View.ld_unit_zero (S := S2000x96) hz, View.ld_unit_zero (S := S96x64) hz]
  unfold k0_pay2 k0_pay1
  exact matmul_plain_zero (M := 2000) (K := 96) (N := 64) none x0 x1

/-- The value block: the block of node rows times the value weights, plus the bias row. -/
theorem out0_5_eq (x0 : Vec Ideal S2000x96 .f32) (x1 : Vec Ideal S96x64 .f32) (x2 : Vec Ideal S96x96 .f32) (x3 : Vec Ideal S1x96 .f32) :
    out0_5 (F := Ideal) x0 x1 x2 x3 = affine2 (M := 2000) (K := 96) (N := 96) x0 x2 x3 := by
  unfold out0_5
  rw [View.canon_unit_zero hz]
  simp only [View.ld_unit_zero (S := S2000x96) hz, View.ld_unit_zero (S := S96x96) hz, View.ld_unit_zero (S := S1x96) hz]
  unfold k0_pay3 k0_pay1
  simp only [shapeCast_self]
  exact addf_matmul_broadcastTo (M := 2000) (K := 96) (N := 96) none x0 x2 x3 _

/-! ## Region 1 -/

/-- The score block. -/
theorem pay_score (x0 : Vec Ideal S3200x96 .f32) (x4 : Vec Ideal S96x64 .f32) (x5 : Vec Ideal S1x64 .f32)
    (x1 : Vec Ideal S3200x64 .f32) (x3 : Vec Ideal S1x64 .f32) :
    k1_pay2 (F := Ideal) x0 x4 x5 x1 x3 = score (M := 3200) x1 x3 (affine2 (M := 3200) (K := 96) (N := 64) x0 x4 x5) := by
  unfold k1_pay2
  simp only [shapeCast_self]
  rw [show addf (matmul dot_S3200x96_S96x64_S3200x64_1_0_0_1_n_n none (truncf .bf16 x0 bitsLt_bf16_f32) (truncf .bf16 x4 bitsLt_bf16_f32)
        (constant (F := Ideal) S3200x64 .f32 0x00000000#32)) (broadcastTo S3200x64 x5 broadcasts_S1x64_S3200x64)
      = affine2 (M := 3200) (K := 96) (N := 64) x0 x4 x5 from addf_matmul_broadcastTo (M := 3200) (K := 96) (N := 64) none x0 x4 x5 _]
  funext i
  obtain ⟨p, c, rfl⟩ : ∃ (p : Fin 3200) (c : Fin 64), i = ix2 p c := ⟨i 0, i 1, eq_ix2 i⟩
  show x1 (ix2 p c) * broadcastTo S3200x64 (divf x3 (broadcast S1x64 (Scalar.ofBits (F := Ideal) .f32 0x403504F3#32))) broadcasts_S1x64_S3200x64 (ix2 p c)
      * affine2 (M := 3200) (K := 96) (N := 64) x0 x4 x5 (ix2 p c) = _
  rw [broadcastTo_1b_ab_apply]
  rfl

/-- The gate block, when the selector matrix has a one exactly where the column lies in the group. -/
theorem pay_gate (sc : FVec Ideal S3200x64 .f32) (x8 : FVec Ideal S64x8 .f32)
    (hbd : ∀ (c : Fin 64) (a : Fin 8), x8 (ix2 c a) = if c.val / 8 = a.val then (1 : EReal) else 0) :
    exp (minimumf (broadcast S3200x8 (Scalar.ofBits (F := Ideal) .f32 0x40A00000#32))
      (maximumf (broadcast S3200x8 (Scalar.ofBits (F := Ideal) .f32 0xC0A00000#32))
        (matmul dot_S3200x64_S64x8_S3200x8_1_0_0_1_n_n (some .fp32) sc x8 (constant (F := Ideal) S3200x8 .f32 0x00000000#32))))
      = gate (M := 3200) sc := by
  rw [show matmul dot_S3200x64_S64x8_S3200x8_1_0_0_1_n_n (some .fp32) sc x8 (constant (F := Ideal) S3200x8 .f32 0x00000000#32)
      = mm (M := 3200) (K := 64) (N := 8) sc x8 from matmul_plain_zero (M := 3200) (K := 64) (N := 8) (some .fp32) sc x8]
  funext i
  obtain ⟨p, a, rfl⟩ : ∃ (p : Fin 3200) (a : Fin 8), i = ix2 p a := ⟨i 0, i 1, eq_ix2 i⟩
  show Ideal.exp (min hi (max lo (∑ k : Fin 64, sc (ix2 p k) * x8 (ix2 k a)))) = Ideal.exp (min hi (max lo (∑ r : Fin 8, sc (ix2 p (col8 a r)))))
  simp only [hbd]
  rw [sum_select (fun k => sc (ix2 p k)) a]

/-- The gated value block, when the repeating matrix has a one exactly where the column lies in the row's group. -/
theorem pay_gated (s : FVec Ideal S3200x8 .f32) (x9 : FVec Ideal S8x96 .f32) (x2 : FVec Ideal S3200x96 .f32)
    (hrep : ∀ (a : Fin 8) (j : Fin 96), x9 (ix2 a j) = if j.val / 12 = a.val then (1 : EReal) else 0) :
    mulf (matmul dot_S3200x8_S8x96_S3200x96_1_0_0_1_n_n (some .fp32) s x9 (constant (F := Ideal) S3200x96 .f32 0x00000000#32)) x2
      = gated (M := 3200) s x2 := by
  rw [show matmul dot_S3200x8_S8x96_S3200x96_1_0_0_1_n_n (some .fp32) s x9 (constant (F := Ideal) S3200x96 .f32 0x00000000#32)
      = mm (M := 3200) (K := 8) (N := 96) s x9 from matmul_plain_zero (M := 3200) (K := 8) (N := 96) (some .fp32) s x9]
  funext i
  obtain ⟨p, j, rfl⟩ : ∃ (p : Fin 3200) (j : Fin 96), i = ix2 p j := ⟨i 0, i 1, eq_ix2 i⟩
  show (∑ k : Fin 8, s (ix2 p k) * x9 (ix2 k j)) * x2 (ix2 p j) = s (ix2 p (head12 j)) * x2 (ix2 p j)
  simp only [hrep]
  rw [sum_repeat (fun k => s (ix2 p k)) j]

variable (x0 : Vec Ideal S3200x96 .f32) (x1 : Vec Ideal S3200x64 .f32) (x2 : Vec Ideal S3200x96 .f32) (x3 : Vec Ideal S1x64 .f32)
  (x4 : Vec Ideal S96x64 .f32) (x5 : Vec Ideal S1x64 .f32) (x6 : Vec Ideal S64x96 .f32) (x7 : Vec Ideal S1x96 .f32)
  (x8 : Vec Ideal S64x8 .f32) (x9 : Vec Ideal S8x96 .f32)

/-- The block of scores of a grid point of region 1. -/
abbrev scoreBlk : Mat 3200 64 := score (M := 3200) x1 x3 (affine2 (M := 3200) (K := 96) (N := 64) x0 x4 x5)

/-- The edge output block: the score block times the output weights, plus the bias row. -/
theorem out1_10_eq : out1_10 (F := Ideal) x0 x1 x2 x3 x4 x5 x6 x7 x8 x9
    = affine2 (M := 3200) (K := 64) (N := 96) (scoreBlk x0 x1 x3 x4 x5) x6 x7 := by
  unfold out1_10
  rw [View.canon_unit_zero hz]
  simp only [View.ld_unit_zero (S := S3200x96) hz, View.ld_unit_zero (S := S96x64) hz, View.ld_unit_zero (S := S1x64) hz,
    View.ld_unit_zero (S := S3200x64) hz, View.ld_unit_zero (S := S64x96) hz, View.ld_unit_zero (S := S1x96) hz]
  unfold k1_pay1 k1_pay5
  rw [pay_score]
  simp only [shapeCast_self]
  exact addf_matmul_broadcastTo (M := 3200) (K := 64) (N := 96) none _ x6 x7 _

/-- The gate block. -/
theorem out1_12_eq (hbd : ∀ (c : Fin 64) (a : Fin 8), x8 (ix2 c a) = if c.val / 8 = a.val then (1 : EReal) else 0) :
    out1_12 (F := Ideal) x0 x1 x2 x3 x4 x5 x6 x7 x8 x9 = gate (M := 3200) (scoreBlk x0 x1 x3 x4 x5) := by
  unfold out1_12
  rw [View.canon_unit_zero hz]
  simp only [View.ld_unit_zero (S := S3200x96) hz, View.ld_unit_zero (S := S96x64) hz, View.ld_unit_zero (S := S1x64) hz,
    View.ld_unit_zero (S := S3200x64) hz, View.ld_unit_zero (S := S64x8) hz]
  unfold k1_pay3
  rw [pay_score]
  exact pay_gate _ x8 hbd

/-- The gated value block. -/
theorem out1_11_eq (hbd : ∀ (c : Fin 64) (a : Fin 8), x8 (ix2 c a) = if c.val / 8 = a.val then (1 : EReal) else 0)
    (hrep : ∀ (a : Fin 8) (j : Fin 96), x9 (ix2 a j) = if j.val / 12 = a.val then (1 : EReal) else 0) :
    out1_11 (F := Ideal) x0 x1 x2 x3 x4 x5 x6 x7 x8 x9 = gated (M := 3200) (gate (M := 3200) (scoreBlk x0 x1 x3 x4 x5)) x2 := by
  unfold out1_11
  rw [View.canon_unit_zero hz]
  simp only [View.ld_unit_zero (S := S3200x96) hz, View.ld_unit_zero (S := S96x64) hz, View.ld_unit_zero (S := S1x64) hz,
    View.ld_unit_zero (S := S3200x64) hz, View.ld_unit_zero (S := S64x8) hz, View.ld_unit_zero (S := S8x96) hz]
  unfold k1_pay4 k1_pay3
  rw [pay_score]
  simp only [shapeCast_self]
  rw [pay_gate _ x8 hbd]
  exact pay_gated _ x9 x2 hrep

end Cert.KernelIdeal.Body

end
-- ==== Proof.Rows.lean ====
/-
  Entries of a product, of an affine layer and of the attention stages computed from a block, against the same
  entries computed from the whole arrays: when the rows and columns the entry reads agree, the entries agree.
-/
import proofs.«158694_j80942953660859_2_alg».proof.Proof.Spec

noncomputable section

open scoped BigOperators

namespace Cert.Attn

open Idealize.ShloMosaic Idealize.ShloMosaic.ValueIdx Cert.Dense

variable {M M' K N : ℕ}

/-- Entry y of a product of blocks is entry i of the product of the arrays when row y₀ of the left block is row i₀
    of the left array and column y₁ of the right block is column i₁ of the right array. -/
theorem mm_at (A : Mat M' K) (W : Mat K N) (bA : Mat M K) (bW : Mat K N) (y : (⟨2, ![M, N]⟩ : Shape).Idx)
    (i : (⟨2, ![M', N]⟩ : Shape).Idx) (hA : ∀ k : Fin K, bA (ix2 (y 0) k) = A (ix2 (i 0) k))
    (hW : ∀ k : Fin K, bW (ix2 k (y 1)) = W (ix2 k (i 1))) : mm bA bW y = mm A W i := by
  unfold mm
  exact Finset.sum_congr rfl fun k _ => by rw [hA k, hW k]

/-- The same with a bias row. -/
theorem affine2_at (A : Mat M' K) (W : Mat K N) (b : Mat 1 N) (bA : Mat M K) (bW : Mat K N) (bb : Mat 1 N)
    (y : (⟨2, ![M, N]⟩ : Shape).Idx) (i : (⟨2, ![M', N]⟩ : Shape).Idx)
    (hA : ∀ k : Fin K, bA (ix2 (y 0) k) = A (ix2 (i 0) k)) (hW : ∀ k : Fin K, bW (ix2 k (y 1)) = W (ix2 k (i 1)))
    (hb : bb (ix2 (0 : Fin 1) (y 1)) = b (ix2 (0 : Fin 1) (i 1))) : affine2 bA bW bb y = affine2 A W b i := by
  show mm bA bW y + bb (ix2 (0 : Fin 1) (y 1)) = mm A W i + b (ix2 (0 : Fin 1) (i 1))
  rw [mm_at A W bA bW y i hA hW, hb]

/-- An entry of the score. -/
theorem score_at (ks pj : Mat M' 64) (qr : Mat 1 64) (bks bpj : Mat M 64) (bqr : Mat 1 64)
    (y : (⟨2, ![M, 64]⟩ : Shape).Idx) (i : (⟨2, ![M', 64]⟩ : Shape).Idx)
    (hk : bks y = ks i) (hp : bpj y = pj i) (hq : bqr (ix2 (0 : Fin 1) (y 1)) = qr (ix2 (0 : Fin 1) (i 1))) :
    score bks bqr bpj y = score ks qr pj i := by
  show bks y * Ideal.div (bqr (ix2 (0 : Fin 1) (y 1))) scale * bpj y = ks i * Ideal.div (qr (ix2 (0 : Fin 1) (i 1))) scale * pj i
  rw [hk, hp, hq]

/-- An entry of the gate reads the eight score entries of its group in its row. -/
theorem gate_at (sc : Mat M' 64) (bsc : Mat M 64) (y : (⟨2, ![M, 8]⟩ : Shape).Idx) (i : (⟨2, ![M', 8]⟩ : Shape).Idx)
    (h : ∀ r : Fin 8, bsc (ix2 (y 0) (col8 (y 1) r)) = sc (ix2 (i 0) (col8 (i 1) r))) : gate bsc y = gate sc i := by
  show Ideal.exp (min hi (max lo (∑ r : Fin 8, bsc (ix2 (y 0) (col8 (y 1) r)))))
    = Ideal.exp (min hi (max lo (∑ r : Fin 8, sc (ix2 (i 0) (col8 (i 1) r)))))
  simp only [h]

/-- An entry of the gated values reads its value entry and the gate of its group in its row. -/
theorem gated_at (s : Mat M' 8) (v : Mat M' 96) (bs : Mat M 8) (bv : Mat M 96) (y : (⟨2, ![M, 96]⟩ : Shape).Idx)
    (i : (⟨2, ![M', 96]⟩ : Shape).Idx) (hs : bs (ix2 (y 0) (head12 (y 1))) = s (ix2 (i 0) (head12 (i 1)))) (hv : bv y = v i) :
    gated bs bv y = gated s v i := by
  show bs (ix2 (y 0) (head12 (y 1))) * bv y = s (ix2 (i 0) (head12 (i 1))) * v i
  rw [hs, hv]

end Cert.Attn

end
-- ==== Proof.Region0.lean ====
/-
  Region 0 over the whole arrays: its 25 grid points each write 2000 rows of the key matrix and of the value
  matrix, computed from the same 2000 rows of the node features and the whole weight matrices. Row r is written
  by point r / 2000, so after the region the key array is the node features times the key weights and the value
  array the node features times the value weights plus the bias row, whatever the arrays held before.
-/
import proofs.«158694_j80942953660859_2_alg».proof.Proof.Gen.KernelIdeal.Frame
import proofs.«158694_j80942953660859_2_alg».proof.Proof.Body
import proofs.«158694_j80942953660859_2_alg».proof.Proof.Rows

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen Cert.KernelIdeal.Body Cert.Dense Cert.Attn
open Idealize.ShloMosaic.Pipeline (Dat)

variable (V : (c : Dev nD) → (b : Ref sig .tc) → Buf (Elt Ideal) ((c : Thread nD τ).loc b))

/-- The index maps over the grid: the three row-blocked windows are at block t, the others at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The key array after the region. -/
abbrev keys (c : Dev nD) : Mat 50000 64 := mm (M := 50000) (K := 96) (N := 64) (V c main_arg0) (V c main_arg4)
/-- The value array after the region. -/
abbrev vals (c : Dev nD) : Mat 50000 96 := affine2 (M := 50000) (K := 96) (N := 96) (V c main_arg0) (V c main_arg6) (V c main_v5)

/-- What point t writes back of the keys is block t of the whole product. -/
theorem flushed4 (c : Dev nD) (t : Fin cfg0.N) :
    (dat0 V c).flushed 4 t = ((cfg0.win 4).blk t).view.read (Elt Ideal) (keys V c) := by
  show (cfg0.win 4).cut (grid0.coords t) ((dat0 V c).after 4 t) = _
  rw [after0_4, out0_4_eq]
  obtain ⟨e00, e01, e10, e11, e20, e21, e30, e31, e40, e41, e50, e51⟩ := idx_facts t
  funext j
  refine mm_at (V c main_arg0) (V c main_arg4) (iblk0 V c 0 t) (iblk0 V c 1 t) j (((cfg0.win 4).blk t).view.emb j) (fun k => ?_) (fun k => ?_)
  · show V c main_arg0 (((cfg0.win 0).blk t).view.emb (ix2 (j 0) k)) = V c main_arg0 (ix2 ((((cfg0.win 4).blk t).view.emb j) 0) k)
    refine congrArg (V c main_arg0) (funext fun a => Fin.ext ?_)
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 96 + 1 * k.val = k.val; omega
  · show V c main_arg4 (((cfg0.win 1).blk t).view.emb (ix2 k (j 1))) = V c main_arg4 (ix2 k ((((cfg0.win 4).blk t).view.emb j) 1))
    refine congrArg (V c main_arg4) (funext fun a => Fin.ext ?_)
    match a with
    | ⟨0, _⟩ => show win0_1.index t (0 : Fin 2) * 96 + 1 * k.val = k.val; omega
    | ⟨1, _⟩ => show win0_1.index t (1 : Fin 2) * 64 + 1 * (j 1).val = win0_4.index t (1 : Fin 2) * 64 + 1 * (j 1).val; omega

/-- What point t writes back of the values is block t of the whole layer. -/
theorem flushed5 (c : Dev nD) (t : Fin cfg0.N) :
    (dat0 V c).flushed 5 t = ((cfg0.win 5).blk t).view.read (Elt Ideal) (vals V c) := by
  show (cfg0.win 5).cut (grid0.coords t) ((dat0 V c).after 5 t) = _
  rw [after0_5, out0_5_eq]
  obtain ⟨e00, e01, e10, e11, e20, e21, e30, e31, e40, e41, e50, e51⟩ := idx_facts t
  funext j
  refine affine2_at (V c main_arg0) (V c main_arg6) (V c main_v5) (iblk0 V c 0 t) (iblk0 V c 2 t) (iblk0 V c 3 t) j
    (((cfg0.win 5).blk t).view.emb j) (fun k => ?_) (fun k => ?_) ?_
  · show V c main_arg0 (((cfg0.win 0).blk t).view.emb (ix2 (j 0) k)) = V c main_arg0 (ix2 ((((cfg0.win 5).blk t).view.emb j) 0) k)
    refine congrArg (V c main_arg0) (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 96 + 1 * k.val = k.val; omega
  · show V c main_arg6 (((cfg0.win 2).blk t).view.emb (ix2 k (j 1))) = V c main_arg6 (ix2 k ((((cfg0.win 5).blk t).view.emb j) 1))
    refine congrArg (V c main_arg6) (funext fun a => Fin.ext ?_)
    match a with
    | ⟨0, _⟩ => show win0_2.index t (0 : Fin 2) * 96 + 1 * k.val = k.val; omega
    | ⟨1, _⟩ => show win0_2.index t (1 : Fin 2) * 96 + 1 * (j 1).val = win0_5.index t (1 : Fin 2) * 96 + 1 * (j 1).val; omega
  · show V c main_v5 (((cfg0.win 3).blk t).view.emb (ix2 (0 : Fin 1) (j 1))) = V c main_v5 (ix2 (0 : Fin 1) ((((cfg0.win 5).blk t).view.emb j) 1))
    refine congrArg (V c main_v5) (funext fun a => Fin.ext ?_)
    match a with
    | ⟨0, _⟩ => show win0_3.index t (0 : Fin 2) * 1 + 1 * 0 = 0; omega
    | ⟨1, _⟩ => show win0_3.index t (1 : Fin 2) * 96 + 1 * (j 1).val = win0_5.index t (1 : Fin 2) * 96 + 1 * (j 1).val; omega

/-- An index of the key array is in point t's block iff its row is among the block's 2000. -/
theorem mem_blk4 (t : Fin cfg0.N) (i : S50000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v6_0).slice (win0_4.rect t)).set ↔ _
  rw [View.set_slice_whole, Rect.mem_set_unit]
  exact Iff.rfl

theorem mem_blk5 (t : Fin cfg0.N) (i : S50000x96.Idx) :
    i ∈ ((cfg0.win 5).blk t).view.set ↔ ∀ a : Fin 2, win0_5.index t a * S2000x96.size a ≤ (i a).val ∧ (i a).val < win0_5.index t a * S2000x96.size a + S2000x96.size a := by
  show i ∈ ((View.whole main_v6_1).slice (win0_5.rect t)).set ↔ _
  rw [View.set_slice_whole, Rect.mem_set_unit]
  exact Iff.rfl

/-- Row r of the key array is written by point r / 2000. -/
theorem cover4 (i : S50000x64.Idx) : ∃ t : Fin cfg0.N, (cfg0.win 4).flush t = true ∧ i ∈ ((cfg0.win 4).blk t).view.set := by
  have hN : grid0.N = 25 := N_0
  have hi0 : (i 0).val < 50000 := (i 0).isLt
  have hi1 : (i 1).val < 64 := (i 1).isLt
  let t : Fin cfg0.N := ⟨(i 0).val / 2000, by show (i 0).val / 2000 < grid0.N; omega⟩
  obtain ⟨e00, e01, e10, e11, e20, e21, e30, e31, e40, e41, e50, e51⟩ := idx_facts t
  have htv : t.val = (i 0).val / 2000 := rfl
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 64 ≤ (i 1).val ∧ (i 1).val < win0_4.index t (1 : Fin 2) * 64 + 64; omega

theorem cover5 (i : S50000x96.Idx) : ∃ t : Fin cfg0.N, (cfg0.win 5).flush t = true ∧ i ∈ ((cfg0.win 5).blk t).view.set := by
  have hN : grid0.N = 25 := N_0
  have hi0 : (i 0).val < 50000 := (i 0).isLt
  have hi1 : (i 1).val < 96 := (i 1).isLt
  let t : Fin cfg0.N := ⟨(i 0).val / 2000, by show (i 0).val / 2000 < grid0.N; omega⟩
  obtain ⟨e00, e01, e10, e11, e20, e21, e30, e31, e40, e41, e50, e51⟩ := idx_facts t
  have htv : t.val = (i 0).val / 2000 := rfl
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 96 ≤ (i 1).val ∧ (i 1).val < win0_5.index t (1 : Fin 2) * 96 + 96; omega

/-- The key array after the region: the node features times the key weights. -/
theorem arr4 (c : Dev nD) : (dat0 V c).arrAt 4 cfg0.N = keys V c :=
  (dat0 V c).arrAt_eq_of_cover 4 (keys V c) (fun t _ => flushed4 V c t) (cover4)

/-- The value array after the region: the node features times the value weights plus the bias row. -/
theorem arr5 (c : Dev nD) : (dat0 V c).arrAt 5 cfg0.N = vals V c :=
  (dat0 V c).arrAt_eq_of_cover 5 (vals V c) (fun t _ => flushed5 V c t) (cover5)

end Cert.KernelIdeal.Region0

end
-- ==== Proof.Region1.lean ====
/-
  Region 1 over the whole arrays: its 250 grid points each write 3200 rows of the edge output, of the gated
  values and of the gates, computed from the same 3200 rows of the edge features, of the gathered key rows and
  of the gathered value rows, and from the whole small operands (the query row, three weight matrices, three
  bias rows, the two 0/1 matrices). Every stage is a function of one row of the per-edge operands, and row r is
  written by point r / 3200, so after the region each of the three arrays is the stage computed on the whole
  arrays.
-/
import proofs.«158694_j80942953660859_2_alg».proof.Proof.Gen.KernelIdeal.Frame
import proofs.«158694_j80942953660859_2_alg».proof.Proof.Body
import proofs.«158694_j80942953660859_2_alg».proof.Proof.Rows

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen Cert.KernelIdeal.Body Cert.Dense Cert.Attn
open Idealize.ShloMosaic.Pipeline (Dat)

variable (V : (c : Dev nD) → (b : Ref sig .tc) → Buf (Elt Ideal) ((c : Thread nD τ).loc b))

/-- The index maps over the grid: the six row-blocked windows are at block t, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

/-! ## A block of an input window, read off its array -/

/-- Row p of point t's block of window 0 is row 3200 t + p of its array. -/
theorem rd0 (c : Dev nD) (t : Fin cfg1.N) (p : Fin 3200) (k : Fin 96) (p' : Fin 800000) (hp : p'.val = t.val * 3200 + p.val) :
    iblk1 V c 0 t (ix2 p k) = V c main_arg1 (ix2 p' k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_arg1 (((cfg1.win 0).blk t).view.emb (ix2 p k)) = V c main_arg1 (ix2 p' k)
  refine congrArg (V c main_arg1) (funext fun a => Fin.ext ?_)
  match a with
  | ⟨0, _⟩ => show win1_0.index t (0 : Fin 2) * 3200 + 1 * p.val = p'.val; omega
  | ⟨1, _⟩ => show win1_0.index t (1 : Fin 2) * 96 + 1 * k.val = k.val; omega

/-- Row p of point t's block of window 1 is row 3200 t + p of its array. -/
theorem rd1 (c : Dev nD) (t : Fin cfg1.N) (p : Fin 3200) (k : Fin 64) (p' : Fin 800000) (hp : p'.val = t.val * 3200 + p.val) :
    iblk1 V c 1 t (ix2 p k) = V c main_v13 (ix2 p' k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v13 (((cfg1.win 1).blk t).view.emb (ix2 p k)) = V c main_v13 (ix2 p' k)
  refine congrArg (V c main_v13) (funext fun a => Fin.ext ?_)
  match a with
  | ⟨0, _⟩ => show win1_1.index t (0 : Fin 2) * 3200 + 1 * p.val = p'.val; omega
  | ⟨1, _⟩ => show win1_1.index t (1 : Fin 2) * 64 + 1 * k.val = k.val; omega

/-- Row p of point t's block of window 2 is row 3200 t + p of its array. -/
theorem rd2 (c : Dev nD) (t : Fin cfg1.N) (p : Fin 3200) (k : Fin 96) (p' : Fin 800000) (hp : p'.val = t.val * 3200 + p.val) :
    iblk1 V c 2 t (ix2 p k) = V c main_v20 (ix2 p' k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v20 (((cfg1.win 2).blk t).view.emb (ix2 p k)) = V c main_v20 (ix2 p' k)
  refine congrArg (V c main_v20) (funext fun a => Fin.ext ?_)
  match a with
  | ⟨0, _⟩ => show win1_2.index t (0 : Fin 2) * 3200 + 1 * p.val = p'.val; omega
  | ⟨1, _⟩ => show win1_2.index t (1 : Fin 2) * 96 + 1 * k.val = k.val; omega

/-- Window 3 stages its whole array at every point. -/
theorem rd3 (c : Dev nD) (t : Fin cfg1.N) (p : Fin 1) (k : Fin 64) :
    iblk1 V c 3 t (ix2 p k) = V c main_v4 (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v4 (((cfg1.win 3).blk t).view.emb (ix2 p k)) = V c main_v4 (ix2 p k)
  refine congrArg (V c main_v4) (funext fun a => Fin.ext ?_)
  match a with
  | ⟨0, _⟩ => show win1_3.index t (0 : Fin 2) * 1 + 1 * p.val = p.val; omega
  | ⟨1, _⟩ => show win1_3.index t (1 : Fin 2) * 64 + 1 * k.val = k.val; omega

/-- Window 4 stages its whole array at every point. -/
theorem rd4 (c : Dev nD) (t : Fin cfg1.N) (p : Fin 96) (k : Fin 64) :
    iblk1 V c 4 t (ix2 p k) = V c main_arg8 (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_arg8 (((cfg1.win 4).blk t).view.emb (ix2 p k)) = V c main_arg8 (ix2 p k)
  refine congrArg (V c main_arg8) (funext fun a => Fin.ext ?_)
  match a with
  | ⟨0, _⟩ => show win1_4.index t (0 : Fin 2) * 96 + 1 * p.val = p.val; omega
  | ⟨1, _⟩ => show win1_4.index t (1 : Fin 2) * 64 + 1 * k.val = k.val; omega

/-- Window 5 stages its whole array at every point. -/
theorem rd5 (c : Dev nD) (t : Fin cfg1.N) (p : Fin 1) (k : Fin 64) :
    iblk1 V c 5 t (ix2 p k) = V c main_v21 (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v21 (((cfg1.win 5).blk t).view.emb (ix2 p k)) = V c main_v21 (ix2 p k)
  refine congrArg (V c main_v21) (funext fun a => Fin.ext ?_)
  match a with
  | ⟨0, _⟩ => show win1_5.index t (0 : Fin 2) * 1 + 1 * p.val = p.val; omega
  | ⟨1, _⟩ => show win1_5.index t (1 : Fin 2) * 64 + 1 * k.val = k.val; omega

/-- Window 6 stages its whole array at every point. -/
theorem rd6 (c : Dev nD) (t : Fin cfg1.N) (p : Fin 64) (k : Fin 96) :
    iblk1 V c 6 t (ix2 p k) = V c main_arg10 (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_arg10 (((cfg1.win 6).blk t).view.emb (ix2 p k)) = V c main_arg10 (ix2 p k)
  refine congrArg (V c main_arg10) (funext fun a => Fin.ext ?_)
  match a with
  | ⟨0, _⟩ => show win1_6.index t (0 : Fin 2) * 64 + 1 * p.val = p.val; omega
  | ⟨1, _⟩ => show win1_6.index t (1 : Fin 2) * 96 + 1 * k.val = k.val; omega

/-- Window 7 stages its whole array at every point. -/
theorem rd7 (c : Dev nD) (t : Fin cfg1.N) (p : Fin 1) (k : Fin 96) :
    iblk1 V c 7 t (ix2 p k) = V c main_v22 (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v22 (((cfg1.win 7).blk t).view.emb (ix2 p k)) = V c main_v22 (ix2 p k)
  refine congrArg (V c main_v22) (funext fun a => Fin.ext ?_)
  match a with
  | ⟨0, _⟩ => show win1_7.index t (0 : Fin 2) * 1 + 1 * p.val = p.val; omega
  | ⟨1, _⟩ => show win1_7.index t (1 : Fin 2) * 96 + 1 * k.val = k.val; omega

/-- Window 8 stages its whole array at every point. -/
theorem rd8 (c : Dev nD) (t : Fin cfg1.N) (p : Fin 64) (k : Fin 8) :
    iblk1 V c 8 t (ix2 p k) = V c main_cst (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_cst (((cfg1.win 8).blk t).view.emb (ix2 p k)) = V c main_cst (ix2 p k)
  refine congrArg (V c main_cst) (funext fun a => Fin.ext ?_)
  match a with
  | ⟨0, _⟩ => show win1_8.index t (0 : Fin 2) * 64 + 1 * p.val = p.val; omega
  | ⟨1, _⟩ => show win1_8.index t (1 : Fin 2) * 8 + 1 * k.val = k.val; omega

/-- Window 9 stages its whole array at every point. -/
theorem rd9 (c : Dev nD) (t : Fin cfg1.N) (p : Fin 8) (k : Fin 96) :
    iblk1 V c 9 t (ix2 p k) = V c main_cst_0 (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_cst_0 (((cfg1.win 9).blk t).view.emb (ix2 p k)) = V c main_cst_0 (ix2 p k)
  refine congrArg (V c main_cst_0) (funext fun a => Fin.ext ?_)
  match a with
  | ⟨0, _⟩ => show win1_9.index t (0 : Fin 2) * 8 + 1 * p.val = p.val; omega
  | ⟨1, _⟩ => show win1_9.index t (1 : Fin 2) * 96 + 1 * k.val = k.val; omega

/-! ## The stages on the whole arrays -/

/-- The projected edge features. -/
abbrev proj (c : Dev nD) : Mat 800000 64 := affine2 (M := 800000) (K := 96) (N := 64) (V c main_arg1) (V c main_arg8) (V c main_v21)
/-- The scores. -/
abbrev scores (c : Dev nD) : Mat 800000 64 := score (M := 800000) (V c main_v13) (V c main_v4) (proj V c)
/-- The edge output. -/
abbrev eout (c : Dev nD) : Mat 800000 96 := affine2 (M := 800000) (K := 64) (N := 96) (scores V c) (V c main_arg10) (V c main_v22)
/-- The gates. -/
abbrev gates (c : Dev nD) : Mat 800000 8 := gate (M := 800000) (scores V c)
/-- The gated values. -/
abbrev gvals (c : Dev nD) : Mat 800000 96 := gated (M := 800000) (gates V c) (V c main_v20)

/-- The 64 × 8 operand is the matrix that selects a group, the 8 × 96 operand the matrix that repeats a gate. -/
def Selectors (c : Dev nD) : Prop :=
  (∀ (k : Fin 64) (a : Fin 8), V c main_cst (ix2 k a) = if k.val / 8 = a.val then (1 : EReal) else 0)
  ∧ (∀ (a : Fin 8) (j : Fin 96), V c main_cst_0 (ix2 a j) = if j.val / 12 = a.val then (1 : EReal) else 0)

/-- An entry of a point's score block is the entry of the whole scores in the block's row. -/
theorem scoreBlk_at (c : Dev nD) (t : Fin cfg1.N) (p : Fin 3200) (k : Fin 64) (p' : Fin 800000) (hp : p'.val = t.val * 3200 + p.val) :
    scoreBlk (iblk1 V c 0 t) (iblk1 V c 1 t) (iblk1 V c 3 t) (iblk1 V c 4 t) (iblk1 V c 5 t) (ix2 p k) = scores V c (ix2 p' k) := by
  refine score_at (V c main_v13) (proj V c) (V c main_v4) (iblk1 V c 1 t)
    (affine2 (M := 3200) (K := 96) (N := 64) (iblk1 V c 0 t) (iblk1 V c 4 t) (iblk1 V c 5 t)) (iblk1 V c 3 t) (ix2 p k) (ix2 p' k) ?_ ?_ ?_
  · exact rd1 V c t p k p' hp
  · exact affine2_at (V c main_arg1) (V c main_arg8) (V c main_v21) (iblk1 V c 0 t) (iblk1 V c 4 t) (iblk1 V c 5 t) (ix2 p k) (ix2 p' k)
      (fun k' => rd0 V c t p k' p' hp) (fun k' => rd4 V c t k' k) (rd5 V c t 0 k)
  · exact rd3 V c t 0 k

/-- The row of the array that row p of point t's block is. -/
def rowOf (t : Fin cfg1.N) (p : Fin 3200) : Fin 800000 :=
  ⟨t.val * 3200 + p.val, by have hN : grid1.N = 250 := N_1; have ht : t.val < grid1.N := t.isLt; have hp := p.isLt; show t.val * 3200 + p.val < 800000; omega⟩

/-! ## What a point writes back -/

theorem flushed10 (c : Dev nD) (t : Fin cfg1.N) :
    (dat1 V c).flushed 10 t = ((cfg1.win 10).blk t).view.read (Elt Ideal) (eout V c) := by
  show (cfg1.win 10).cut (grid1.coords t) ((dat1 V c).after 10 t) = _
  rw [after1_10, out1_10_eq]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext j
  have hr : ((((cfg1.win 10).blk t).view.emb j) 0) = rowOf t (j 0) :=
    Fin.ext (by show win1_10.index t (0 : Fin 2) * 3200 + 1 * (j 0).val = t.val * 3200 + (j 0).val; omega)
  have hc : ((((cfg1.win 10).blk t).view.emb j) 1) = j 1 :=
    Fin.ext (by show win1_10.index t (1 : Fin 2) * 96 + 1 * (j 1).val = (j 1).val; omega)
  refine affine2_at (scores V c) (V c main_arg10) (V c main_v22)
    (scoreBlk (iblk1 V c 0 t) (iblk1 V c 1 t) (iblk1 V c 3 t) (iblk1 V c 4 t) (iblk1 V c 5 t)) (iblk1 V c 6 t) (iblk1 V c 7 t) j
    (((cfg1.win 10).blk t).view.emb j) (fun k => ?_) (fun k => ?_) ?_
  · rw [hr]; exact scoreBlk_at V c t (j 0) k (rowOf t (j 0)) rfl
  · rw [hc]; exact rd6 V c t k (j 1)
  · rw [hc]; exact rd7 V c t 0 (j 1)

theorem flushed12 (c : Dev nD) (hS : Selectors V c) (t : Fin cfg1.N) :
    (dat1 V c).flushed 12 t = ((cfg1.win 12).blk t).view.read (Elt Ideal) (gates V c) := by
  show (cfg1.win 12).cut (grid1.coords t) ((dat1 V c).after 12 t) = _
  rw [after1_12, out1_12_eq _ _ _ _ _ _ _ _ _ _ (fun k a => (rd8 V c t k a).trans (hS.1 k a))]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext j
  have hr : ((((cfg1.win 12).blk t).view.emb j) 0) = rowOf t (j 0) :=
    Fin.ext (by show win1_12.index t (0 : Fin 2) * 3200 + 1 * (j 0).val = t.val * 3200 + (j 0).val; omega)
  have hc : ((((cfg1.win 12).blk t).view.emb j) 1) = j 1 :=
    Fin.ext (by show win1_12.index t (1 : Fin 2) * 8 + 1 * (j 1).val = (j 1).val; omega)
  refine gate_at (scores V c) (scoreBlk (iblk1 V c 0 t) (iblk1 V c 1 t) (iblk1 V c 3 t) (iblk1 V c 4 t) (iblk1 V c 5 t)) j
    (((cfg1.win 12).blk t).view.emb j) (fun r => ?_)
  rw [hr, hc]; exact scoreBlk_at V c t (j 0) (col8 (j 1) r) (rowOf t (j 0)) rfl

theorem flushed11 (c : Dev nD) (hS : Selectors V c) (t : Fin cfg1.N) :
    (dat1 V c).flushed 11 t = ((cfg1.win 11).blk t).view.read (Elt Ideal) (gvals V c) := by
  show (cfg1.win 11).cut (grid1.coords t) ((dat1 V c).after 11 t) = _
  rw [after1_11, out1_11_eq _ _ _ _ _ _ _ _ _ _ (fun k a => (rd8 V c t k a).trans (hS.1 k a)) (fun a j => (rd9 V c t a j).trans (hS.2 a j))]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext j
  have hr : ((((cfg1.win 11).blk t).view.emb j) 0) = rowOf t (j 0) :=
    Fin.ext (by show win1_11.index t (0 : Fin 2) * 3200 + 1 * (j 0).val = t.val * 3200 + (j 0).val; omega)
  have hc : ((((cfg1.win 11).blk t).view.emb j) 1) = j 1 :=
    Fin.ext (by show win1_11.index t (1 : Fin 2) * 96 + 1 * (j 1).val = (j 1).val; omega)
  have hj : j = ix2 (j 0) (j 1) := eq_ix2 j
  have he : ((cfg1.win 11).blk t).view.emb j = ix2 (rowOf t (j 0)) (j 1) := by
    funext a
    match a with
    | ⟨0, _⟩ => exact hr
    | ⟨1, _⟩ => exact hc
  refine gated_at (gates V c) (V c main_v20)
    (gate (M := 3200) (scoreBlk (iblk1 V c 0 t) (iblk1 V c 1 t) (iblk1 V c 3 t) (iblk1 V c 4 t) (iblk1 V c 5 t))) (iblk1 V c 2 t) j
    (((cfg1.win 11).blk t).view.emb j) ?_ ?_
  · rw [hr, hc]
    exact gate_at (scores V c) (scoreBlk (iblk1 V c 0 t) (iblk1 V c 1 t) (iblk1 V c 3 t) (iblk1 V c 4 t) (iblk1 V c 5 t))
      (ix2 (j 0) (head12 (j 1))) (ix2 (rowOf t (j 0)) (head12 (j 1)))
      (fun r => scoreBlk_at V c t (j 0) (col8 (head12 (j 1)) r) (rowOf t (j 0)) rfl)
  · rw [he, hj]; exact rd2 V c t (j 0) (j 1) (rowOf t (j 0)) rfl

/-! ## The blocks cover the arrays -/

/-- An index of window 10's array is in point t's block iff its row is among the block's 3200. -/
theorem mem_blk10 (t : Fin cfg1.N) (i : S800000x96.Idx) :
    i ∈ ((cfg1.win 10).blk t).view.set ↔ ∀ a : Fin 2, win1_10.index t a * S3200x96.size a ≤ (i a).val ∧ (i a).val < win1_10.index t a * S3200x96.size a + S3200x96.size a := by
  show i ∈ ((View.whole main_v23_0).slice (win1_10.rect t)).set ↔ _
  rw [View.set_slice_whole, Rect.mem_set_unit]
  exact Iff.rfl

/-- Row r of window 10's array is written by point r / 3200. -/
theorem cover10 (i : S800000x96.Idx) : ∃ t : Fin cfg1.N, (cfg1.win 10).flush t = true ∧ i ∈ ((cfg1.win 10).blk t).view.set := by
  have hN : grid1.N = 250 := N_1
  have hi0 : (i 0).val < 800000 := (i 0).isLt
  have hi1 : (i 1).val < 96 := (i 1).isLt
  let t : Fin cfg1.N := ⟨(i 0).val / 3200, by show (i 0).val / 3200 < grid1.N; omega⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have htv : t.val = (i 0).val / 3200 := rfl
  refine ⟨t, flush1_10 t, ?_⟩
  rw [mem_blk10]
  intro a
  match a with
  | ⟨0, _⟩ => show win1_10.index t (0 : Fin 2) * 3200 ≤ (i 0).val ∧ (i 0).val < win1_10.index t (0 : Fin 2) * 3200 + 3200; omega
  | ⟨1, _⟩ => show win1_10.index t (1 : Fin 2) * 96 ≤ (i 1).val ∧ (i 1).val < win1_10.index t (1 : Fin 2) * 96 + 96; omega

/-- An index of window 11's array is in point t's block iff its row is among the block's 3200. -/
theorem mem_blk11 (t : Fin cfg1.N) (i : S800000x96.Idx) :
    i ∈ ((cfg1.win 11).blk t).view.set ↔ ∀ a : Fin 2, win1_11.index t a * S3200x96.size a ≤ (i a).val ∧ (i a).val < win1_11.index t a * S3200x96.size a + S3200x96.size a := by
  show i ∈ ((View.whole main_v23_1).slice (win1_11.rect t)).set ↔ _
  rw [View.set_slice_whole, Rect.mem_set_unit]
  exact Iff.rfl

/-- Row r of window 11's array is written by point r / 3200. -/
theorem cover11 (i : S800000x96.Idx) : ∃ t : Fin cfg1.N, (cfg1.win 11).flush t = true ∧ i ∈ ((cfg1.win 11).blk t).view.set := by
  have hN : grid1.N = 250 := N_1
  have hi0 : (i 0).val < 800000 := (i 0).isLt
  have hi1 : (i 1).val < 96 := (i 1).isLt
  let t : Fin cfg1.N := ⟨(i 0).val / 3200, by show (i 0).val / 3200 < grid1.N; omega⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have htv : t.val = (i 0).val / 3200 := rfl
  refine ⟨t, flush1_11 t, ?_⟩
  rw [mem_blk11]
  intro a
  match a with
  | ⟨0, _⟩ => show win1_11.index t (0 : Fin 2) * 3200 ≤ (i 0).val ∧ (i 0).val < win1_11.index t (0 : Fin 2) * 3200 + 3200; omega
  | ⟨1, _⟩ => show win1_11.index t (1 : Fin 2) * 96 ≤ (i 1).val ∧ (i 1).val < win1_11.index t (1 : Fin 2) * 96 + 96; omega

/-- An index of window 12's array is in point t's block iff its row is among the block's 3200. -/
theorem mem_blk12 (t : Fin cfg1.N) (i : S800000x8.Idx) :
    i ∈ ((cfg1.win 12).blk t).view.set ↔ ∀ a : Fin 2, win1_12.index t a * S3200x8.size a ≤ (i a).val ∧ (i a).val < win1_12.index t a * S3200x8.size a + S3200x8.size a := by
  show i ∈ ((View.whole main_v23_2).slice (win1_12.rect t)).set ↔ _
  rw [View.set_slice_whole, Rect.mem_set_unit]
  exact Iff.rfl

/-- Row r of window 12's array is written by point r / 3200. -/
theorem cover12 (i : S800000x8.Idx) : ∃ t : Fin cfg1.N, (cfg1.win 12).flush t = true ∧ i ∈ ((cfg1.win 12).blk t).view.set := by
  have hN : grid1.N = 250 := N_1
  have hi0 : (i 0).val < 800000 := (i 0).isLt
  have hi1 : (i 1).val < 8 := (i 1).isLt
  let t : Fin cfg1.N := ⟨(i 0).val / 3200, by show (i 0).val / 3200 < grid1.N; omega⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have htv : t.val = (i 0).val / 3200 := rfl
  refine ⟨t, flush1_12 t, ?_⟩
  rw [mem_blk12]
  intro a
  match a with
  | ⟨0, _⟩ => show win1_12.index t (0 : Fin 2) * 3200 ≤ (i 0).val ∧ (i 0).val < win1_12.index t (0 : Fin 2) * 3200 + 3200; omega
  | ⟨1, _⟩ => show win1_12.index t (1 : Fin 2) * 8 ≤ (i 1).val ∧ (i 1).val < win1_12.index t (1 : Fin 2) * 8 + 8; omega

/-! ## The three arrays after the region -/

theorem arr10 (c : Dev nD) : (dat1 V c).arrAt 10 cfg1.N = eout V c :=
  (dat1 V c).arrAt_eq_of_cover 10 (eout V c) (fun t _ => flushed10 V c t) (cover10)

theorem arr11 (c : Dev nD) (hS : Selectors V c) : (dat1 V c).arrAt 11 cfg1.N = gvals V c :=
  (dat1 V c).arrAt_eq_of_cover 11 (gvals V c) (fun t _ => flushed11 V c hS t) (cover11)

theorem arr12 (c : Dev nD) (hS : Selectors V c) : (dat1 V c).arrAt 12 cfg1.N = gates V c :=
  (dat1 V c).arrAt_eq_of_cover 12 (gates V c) (fun t _ => flushed12 V c hS t) (cover12)

end Cert.KernelIdeal.Region1

end
-- ==== Proof.Lits.lean ====
/-
  The two constant 0/1 matrices the program passes to region 1, entry by entry: the 64 × 8 matrix has a one at
  (c, a) exactly when column c of 64 lies in group a (c / 8 = a), the 8 × 96 matrix a one at (a, j) exactly when
  column j of 96 lies in group a (j / 12 = a); every other entry is zero.
-/
import proofs.«158694_j80942953660859_2_alg».proof.Proof.Gen.KernelIdeal
import proofs.«158694_j80942953660859_2_alg».proof.Proof.Spec

set_option maxRecDepth 65536

noncomputable section

namespace Cert.KernelIdeal.Lits

open Idealize.ShloMosaic Idealize.ShloMosaic.ValueIdx Cert.KernelIdeal

/-- The words of the selector matrix, row-major. -/
theorem select_words : ∀ (c : Fin 64) (a : Fin 8),
    lit0t (c.val * 8 + a.val) = if c.val / 8 = a.val then 0x3F800000#32 else 0x00000000#32 := by decide +kernel

/-- The words of the repeating matrix, row-major. -/
theorem repeat_words : ∀ (a : Fin 8) (j : Fin 96),
    lit1t (a.val * 96 + j.val) = if j.val / 12 = a.val then 0x3F800000#32 else 0x00000000#32 := by decide +kernel

/-- The selector matrix as extended reals. -/
theorem select_entry (c : Fin 64) (a : Fin 8) :
    Ideal.ofBits .f32 (lit0 (S64x8.rowMajor (ix2 c a))) = if c.val / 8 = a.val then (1 : EReal) else 0 := by
  have hv : (S64x8.rowMajor (ix2 c a)).val = c.val * 8 + a.val := Shape.rowMajor_val_two (d := ![64, 8]) (ix2 c a)
  have hw : lit0 (S64x8.rowMajor (ix2 c a)) = lit0t (c.val * 8 + a.val) := by
    show lit0t (S64x8.rowMajor (ix2 c a)).val = _
    rw [hv]
  rw [hw, select_words c a]
  split
  · exact Cert.Consts.ofBits_one
  · exact Ideal.ofBits_zero_f32

/-- The repeating matrix as extended reals. -/
theorem repeat_entry (a : Fin 8) (j : Fin 96) :
    Ideal.ofBits .f32 (lit1 (S8x96.rowMajor (ix2 a j))) = if j.val / 12 = a.val then (1 : EReal) else 0 := by
  have hv : (S8x96.rowMajor (ix2 a j)).val = a.val * 96 + j.val := Shape.rowMajor_val_two (d := ![8, 96]) (ix2 a j)
  have hw : lit1 (S8x96.rowMajor (ix2 a j)) = lit1t (a.val * 96 + j.val) := by
    show lit1t (S8x96.rowMajor (ix2 a j)).val = _
    rw [hv]
  rw [hw, repeat_words a j]
  split
  · exact Cert.Consts.ofBits_one
  · exact Ideal.ofBits_zero_f32

end Cert.KernelIdeal.Lits

end
-- ==== Proof.HostK.lean ====
/-
  The idealized kernel's host operations, stretch by stretch, as values of the argument arrays.

  Before region 0: the mean of the node features over the nodes (their sum divided by the node count), cast to a
  one-row matrix and multiplied by the query weights: the query row; the value bias cast to a one-row matrix; the
  two constant 0/1 matrices. Between the regions: the source indices, wrapped when negative, as a column, and
  the key and value rows taken at it; two more bias rows as one-row matrices. After region 1: the gated values
  and the gates as cubes, accumulated into the nodes at the destination indices, the quotient of the two sums
  (the denominator offset by a constant), flattened.
-/
import proofs.«158694_j80942953660859_2_alg».proof.Proof.Gen.KernelIdeal.Frame
import proofs.«158694_j80942953660859_2_alg».proof.Proof.Region0
import proofs.«158694_j80942953660859_2_alg».proof.Proof.Region1
import proofs.«158694_j80942953660859_2_alg».proof.Proof.Lits
import Idealize.ShloMosaic.Lib.StableHlo.Run
import Idealize.ShloMosaic.Lib.ValueIdx

set_option maxRecDepth 16384
set_option maxHeartbeats 4000000

noncomputable section

namespace Cert.KernelIdeal.HostK

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## Before region 0 -/

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg1 (c : Dev nD) : W1 m ρ c (Proc.devRef .tc main_arg1) = m ((c : Thread nD τ).loc main_arg1) := by
  show StableHlo.after hostOps0 (W0 m ρ c) (Proc.devRef .tc main_arg1) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_arg3 (c : Dev nD) : W1 m ρ c (Proc.devRef .tc main_arg3) = m ((c : Thread nD τ).loc main_arg3) := by
  show StableHlo.after hostOps0 (W0 m ρ c) (Proc.devRef .tc main_arg3) = _
  after_results

theorem W1_arg4 (c : Dev nD) : W1 m ρ c (Proc.devRef .tc main_arg4) = m ((c : Thread nD τ).loc main_arg4) := by
  show StableHlo.after hostOps0 (W0 m ρ c) (Proc.devRef .tc main_arg4) = _
  after_results

theorem W1_arg5 (c : Dev nD) : W1 m ρ c (Proc.devRef .tc main_arg5) = m ((c : Thread nD τ).loc main_arg5) := by
  show StableHlo.after hostOps0 (W0 m ρ c) (Proc.devRef .tc main_arg5) = _
  after_results

theorem W1_arg6 (c : Dev nD) : W1 m ρ c (Proc.devRef .tc main_arg6) = m ((c : Thread nD τ).loc main_arg6) := by
  show StableHlo.after hostOps0 (W0 m ρ c) (Proc.devRef .tc main_arg6) = _
  after_results

theorem W1_arg8 (c : Dev nD) : W1 m ρ c (Proc.devRef .tc main_arg8) = m ((c : Thread nD τ).loc main_arg8) := by
  show StableHlo.after hostOps0 (W0 m ρ c) (Proc.devRef .tc main_arg8) = _
  after_results

theorem W1_arg9 (c : Dev nD) : W1 m ρ c (Proc.devRef .tc main_arg9) = m ((c : Thread nD τ).loc main_arg9) := by
  show StableHlo.after hostOps0 (W0 m ρ c) (Proc.devRef .tc main_arg9) = _
  after_results

theorem W1_arg10 (c : Dev nD) : W1 m ρ c (Proc.devRef .tc main_arg10) = m ((c : Thread nD τ).loc main_arg10) := by
  show StableHlo.after hostOps0 (W0 m ρ c) (Proc.devRef .tc main_arg10) = _
  after_results

theorem W1_arg11 (c : Dev nD) : W1 m ρ c (Proc.devRef .tc main_arg11) = m ((c : Thread nD τ).loc main_arg11) := by
  show StableHlo.after hostOps0 (W0 m ρ c) (Proc.devRef .tc main_arg11) = _
  after_results

/-- The mean of the node features over the nodes. -/
abbrev meanK (c : Dev nD) : FVec Ideal S96 .f32 :=
  Host.divf (Host.reduceAdd (m ((c : Thread nD τ).loc main_arg0)) (constant (F := Ideal) S_ .f32 0x00000000#32) reducesTo_S50000x96_S96_d0 h_S_)
    (broadcastInDim S96 ![] bcast_S_S96 (constant (F := Ideal) S_ .f32 0x47435000#32))

theorem W1_v4 (c : Dev nD) : W1 m ρ c (Proc.devRef .tc main_v4)
    = Host.dotGeneral (F := Ideal) (φ₁ := .f32) (φ₂ := .f32) dot_S1x96_S96x64_S1x64_1_0_0_1_n_n none (shapeCast S1x96 (meanK m c) shapeCasts_S96_S1x96) (m ((c : Thread nD τ).loc main_arg5)) := by
  show StableHlo.after hostOps0 (W0 m ρ c) (Proc.devRef .tc main_v4) = _
  after_results <;> rfl

theorem W1_v5 (c : Dev nD) : W1 m ρ c (Proc.devRef .tc main_v5) = shapeCast S1x96 (m ((c : Thread nD τ).loc main_arg7)) shapeCasts_S96_S1x96 := by
  show StableHlo.after hostOps0 (W0 m ρ c) (Proc.devRef .tc main_v5) = _
  after_results <;> rfl

theorem W1_cst (c : Dev nD) : W1 m ρ c (Proc.devRef .tc main_cst) = fun i => FloatOps.ofBits (F := Ideal) .f32 (lit0 (S64x8.rowMajor i)) := by
  show StableHlo.after hostOps0 (W0 m ρ c) (Proc.devRef .tc main_cst) = _
  after_results <;> rfl

theorem W1_cst_0 (c : Dev nD) : W1 m ρ c (Proc.devRef .tc main_cst_0) = fun i => FloatOps.ofBits (F := Ideal) .f32 (lit1 (S8x96.rowMajor i)) := by
  show StableHlo.after hostOps0 (W0 m ρ c) (Proc.devRef .tc main_cst_0) = _
  after_results <;> rfl

/-! ## Region 0's exit -/

/-- The key array: the node features times the key weights. -/
theorem W2_keys (c : Dev nD) : W2 m ρ c (Proc.devRef .tc main_v6_0)
    = Cert.Dense.mm (M := 50000) (K := 96) (N := 64) (m ((c : Thread nD τ).loc main_arg0)) (m ((c : Thread nD τ).loc main_arg4)) := by
  refine ((W2_arr m ρ c 4).trans (Cert.KernelIdeal.Region0.arr4 (V1 m ρ) c)).trans ?_
  show Cert.Dense.mm (M := 50000) (K := 96) (N := 64) (W1 m ρ c (Proc.devRef .tc main_arg0)) (W1 m ρ c (Proc.devRef .tc main_arg4)) = _
  rw [W1_arg0, W1_arg4]

/-- The value array: the node features times the value weights plus the bias row. -/
theorem W2_vals (c : Dev nD) : W2 m ρ c (Proc.devRef .tc main_v6_1)
    = Cert.Dense.affine2 (M := 50000) (K := 96) (N := 96) (m ((c : Thread nD τ).loc main_arg0)) (m ((c : Thread nD τ).loc main_arg6)) (shapeCast S1x96 (m ((c : Thread nD τ).loc main_arg7)) shapeCasts_S96_S1x96) := by
  refine ((W2_arr m ρ c 5).trans (Cert.KernelIdeal.Region0.arr5 (V1 m ρ) c)).trans ?_
  show Cert.Dense.affine2 (M := 50000) (K := 96) (N := 96) (W1 m ρ c (Proc.devRef .tc main_arg0)) (W1 m ρ c (Proc.devRef .tc main_arg6))
    (W1 m ρ c (Proc.devRef .tc main_v5)) = _
  rw [W1_arg0, W1_arg6, W1_v5]

theorem W2_arg1 (c : Dev nD) : W2 m ρ c (Proc.devRef .tc main_arg1) = m ((c : Thread nD τ).loc main_arg1) :=
  (W2_of_ne m ρ c main_arg1 (by decide)).trans (W1_arg1 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg3 (c : Dev nD) : W2 m ρ c (Proc.devRef .tc main_arg3) = m ((c : Thread nD τ).loc main_arg3) :=
  (W2_of_ne m ρ c main_arg3 (by decide)).trans (W1_arg3 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

theorem W2_arg10 (c : Dev nD) : W2 m ρ c (Proc.devRef .tc main_arg10) = m ((c : Thread nD τ).loc main_arg10) :=
  (W2_of_ne m ρ c main_arg10 (by decide)).trans (W1_arg10 m ρ c)

theorem W2_arg11 (c : Dev nD) : W2 m ρ c (Proc.devRef .tc main_arg11) = m ((c : Thread nD τ).loc main_arg11) :=
  (W2_of_ne m ρ c main_arg11 (by decide)).trans (W1_arg11 m ρ c)

theorem W2_v4 (c : Dev nD) : W2 m ρ c (Proc.devRef .tc main_v4)
    = Host.dotGeneral (F := Ideal) (φ₁ := .f32) (φ₂ := .f32) dot_S1x96_S96x64_S1x64_1_0_0_1_n_n none (shapeCast S1x96 (meanK m c) shapeCasts_S96_S1x96) (m ((c : Thread nD τ).loc main_arg5)) :=
  (W2_of_ne m ρ c main_v4 (by decide)).trans (W1_v4 m ρ c)

theorem W2_cst (c : Dev nD) : W2 m ρ c (Proc.devRef .tc main_cst) = fun i => FloatOps.ofBits (F := Ideal) .f32 (lit0 (S64x8.rowMajor i)) :=
  (W2_of_ne m ρ c main_cst (by decide)).trans (W1_cst m ρ c)

theorem W2_cst_0 (c : Dev nD) : W2 m ρ c (Proc.devRef .tc main_cst_0) = fun i => FloatOps.ofBits (F := Ideal) .f32 (lit1 (S8x96.rowMajor i)) :=
  (W2_of_ne m ρ c main_cst_0 (by decide)).trans (W1_cst_0 m ρ c)

/-! ## Between the regions -/

/-- The source indices, wrapped when negative, as a column. -/
abbrev srcCol (c : Dev nD) : (⟨S800000x1, .i32⟩ : BufTy).Contents (Elt Ideal) :=
  broadcastInDim S800000x1 ![0] bcast_S800000_S800000x1_0
    (select (cmpi .slt (m ((c : Thread nD τ).loc main_arg2)) (broadcastInDim S800000 ![] bcast_S_S800000 (constantI S_ 32 0#32)))
      (addi (m ((c : Thread nD τ).loc main_arg2)) (broadcastInDim S800000 ![] bcast_S_S800000 (constantI S_ 32 50000#32))) (m ((c : Thread nD τ).loc main_arg2)))

/-- The key rows taken at the source column. -/
theorem W3_v13 (c : Dev nD) : W3 m ρ c (Proc.devRef .tc main_v13)
    = Host.gather gather_S50000x64_S800000x1_S800000x64_1_0_n_n_0_1_164
        (Cert.Dense.mm (M := 50000) (K := 96) (N := 64) (m ((c : Thread nD τ).loc main_arg0)) (m ((c : Thread nD τ).loc main_arg4))) (srcCol m c) := by
  show StableHlo.after hostOps1 (W2 m ρ c) (Proc.devRef .tc main_v13) = _
  after_results_simp
  rw [W2_keys, W2_arg2]

/-- The value rows taken at the source column. -/
theorem W3_v20 (c : Dev nD) : W3 m ρ c (Proc.devRef .tc main_v20)
    = Host.gather gather_S50000x96_S800000x1_S800000x96_1_0_n_n_0_1_196
        (Cert.Dense.affine2 (M := 50000) (K := 96) (N := 96) (m ((c : Thread nD τ).loc main_arg0)) (m ((c : Thread nD τ).loc main_arg6)) (shapeCast S1x96 (m ((c : Thread nD τ).loc main_arg7)) shapeCasts_S96_S1x96)) (srcCol m c) := by
  show StableHlo.after hostOps1 (W2 m ρ c) (Proc.devRef .tc main_v20) = _
  after_results_simp
  rw [W2_vals, W2_arg2]

theorem W3_v21 (c : Dev nD) : W3 m ρ c (Proc.devRef .tc main_v21) = shapeCast S1x64 (m ((c : Thread nD τ).loc main_arg9)) shapeCasts_S64_S1x64 := by
  show StableHlo.after hostOps1 (W2 m ρ c) (Proc.devRef .tc main_v21) = _
  after_results_simp
  rw [W2_arg9]
  rfl

theorem W3_v22 (c : Dev nD) : W3 m ρ c (Proc.devRef .tc main_v22) = shapeCast S1x96 (m ((c : Thread nD τ).loc main_arg11)) shapeCasts_S96_S1x96 := by
  show StableHlo.after hostOps1 (W2 m ρ c) (Proc.devRef .tc main_v22) = _
  after_results_simp
  rw [W2_arg11]
  rfl

theorem W3_arg1 (c : Dev nD) : W3 m ρ c (Proc.devRef .tc main_arg1) = m ((c : Thread nD τ).loc main_arg1) := by
  show StableHlo.after hostOps1 (W2 m ρ c) (Proc.devRef .tc main_arg1) = _
  after_results_simp
  exact W2_arg1 m ρ c

theorem W3_arg3 (c : Dev nD) : W3 m ρ c (Proc.devRef .tc main_arg3) = m ((c : Thread nD τ).loc main_arg3) := by
  show StableHlo.after hostOps1 (W2 m ρ c) (Proc.devRef .tc main_arg3) = _
  after_results_simp
  exact W2_arg3 m ρ c

theorem W3_arg8 (c : Dev nD) : W3 m ρ c (Proc.devRef .tc main_arg8) = m ((c : Thread nD τ).loc main_arg8) := by
  show StableHlo.after hostOps1 (W2 m ρ c) (Proc.devRef .tc main_arg8) = _
  after_results_simp
  exact W2_arg8 m ρ c

theorem W3_arg10 (c : Dev nD) : W3 m ρ c (Proc.devRef .tc main_arg10) = m ((c : Thread nD τ).loc main_arg10) := by
  show StableHlo.after hostOps1 (W2 m ρ c) (Proc.devRef .tc main_arg10) = _
  after_results_simp
  exact W2_arg10 m ρ c

theorem W3_v4 (c : Dev nD) : W3 m ρ c (Proc.devRef .tc main_v4)
    = Host.dotGeneral (F := Ideal) (φ₁ := .f32) (φ₂ := .f32) dot_S1x96_S96x64_S1x64_1_0_0_1_n_n none (shapeCast S1x96 (meanK m c) shapeCasts_S96_S1x96) (m ((c : Thread nD τ).loc main_arg5)) := by
  show StableHlo.after hostOps1 (W2 m ρ c) (Proc.devRef .tc main_v4) = _
  after_results_simp
  exact W2_v4 m ρ c

theorem W3_cst (c : Dev nD) : W3 m ρ c (Proc.devRef .tc main_cst) = fun i => FloatOps.ofBits (F := Ideal) .f32 (lit0 (S64x8.rowMajor i)) := by
  show StableHlo.after hostOps1 (W2 m ρ c) (Proc.devRef .tc main_cst) = _
  after_results_simp
  exact W2_cst m ρ c

theorem W3_cst_0 (c : Dev nD) : W3 m ρ c (Proc.devRef .tc main_cst_0) = fun i => FloatOps.ofBits (F := Ideal) .f32 (lit1 (S8x96.rowMajor i)) := by
  show StableHlo.after hostOps1 (W2 m ρ c) (Proc.devRef .tc main_cst_0) = _
  after_results_simp
  exact W2_cst_0 m ρ c

/-- Region 1 is entered with the two constant operands being the selecting and the repeating 0/1 matrices. -/
theorem selectors (c : Dev nD) : Cert.KernelIdeal.Region1.Selectors (V3 m ρ) c := by
  refine ⟨fun k a => ?_, fun a j => ?_⟩
  · show W3 m ρ c (Proc.devRef .tc main_cst) (ix2 k a) = _
    rw [W3_cst]
    exact Cert.KernelIdeal.Lits.select_entry k a
  · show W3 m ρ c (Proc.devRef .tc main_cst_0) (ix2 a j) = _
    rw [W3_cst_0]
    exact Cert.KernelIdeal.Lits.repeat_entry a j

/-! ## Region 1's exit -/

theorem W4_eout (c : Dev nD) : W4 m ρ c (Proc.devRef .tc main_v23_0) = Cert.KernelIdeal.Region1.eout (V3 m ρ) c :=
  (W4_arr m ρ c 10).trans (Cert.KernelIdeal.Region1.arr10 (V3 m ρ) c)

theorem W4_gvals (c : Dev nD) : W4 m ρ c (Proc.devRef .tc main_v23_1) = Cert.KernelIdeal.Region1.gvals (V3 m ρ) c :=
  (W4_arr m ρ c 11).trans (Cert.KernelIdeal.Region1.arr11 (V3 m ρ) c (selectors m ρ c))

theorem W4_gates (c : Dev nD) : W4 m ρ c (Proc.devRef .tc main_v23_2) = Cert.KernelIdeal.Region1.gates (V3 m ρ) c :=
  (W4_arr m ρ c 12).trans (Cert.KernelIdeal.Region1.arr12 (V3 m ρ) c (selectors m ρ c))

theorem W4_arg3 (c : Dev nD) : W4 m ρ c (Proc.devRef .tc main_arg3) = m ((c : Thread nD τ).loc main_arg3) :=
  (W4_of_ne m ρ c main_arg3 (by decide)).trans (W3_arg3 m ρ c)

/-! ## After region 1 -/

/-- The destination indices as a column. -/
abbrev dstCol (c : Dev nD) : (⟨S800000x1, .i32⟩ : BufTy).Contents (Elt Ideal) :=
  broadcastInDim S800000x1 ![0] bcast_S800000_S800000x1_0 (m ((c : Thread nD τ).loc main_arg3))

/-- The node output from the gated values and the gates as cubes: both accumulated into the nodes at the destination
    column, the first sum divided by the second offset by a constant, flattened. -/
def tail (c : Dev nD) (u : (⟨S800000x8x12, .f32⟩ : BufTy).Contents (Elt Ideal)) (s : (⟨S800000x8x1, .f32⟩ : BufTy).Contents (Elt Ideal)) :
    (⟨S50000x96, .f32⟩ : BufTy).Contents (Elt Ideal) :=
  shapeCast S50000x96
    (Host.divf
      (Host.scatterAdd scatter_S50000x8x12_S800000x1_S800000x8x12_12_0_0_1
        (broadcastInDim S50000x8x12 ![] bcast_S_S50000x8x12 (constant (F := Ideal) S_ .f32 0x00000000#32)) (dstCol m c) u)
      (broadcastInDim S50000x8x12 ![0, 1, 2] bcast_S50000x8x1_S50000x8x12_0_1_2
        (addf
          (Host.scatterAdd scatter_S50000x8x1_S800000x1_S800000x8x1_12_0_0_1
            (broadcastInDim S50000x8x1 ![] bcast_S_S50000x8x1 (constant (F := Ideal) S_ .f32 0x00000000#32)) (dstCol m c) s)
          (broadcastInDim S50000x8x1 ![] bcast_S_S50000x8x1 (constant (F := Ideal) S_ .f32 0x358637BD#32)))))
    shapeCasts_S50000x8x12_S50000x96

theorem W5_v23_0 (c : Dev nD) : W5 m ρ c (Proc.devRef .tc main_v23_0) = Cert.KernelIdeal.Region1.eout (V3 m ρ) c := by
  show StableHlo.after hostOps2 (W4 m ρ c) (Proc.devRef .tc main_v23_0) = _
  after_results_simp
  exact W4_eout m ρ c

theorem W5_v36 (c : Dev nD) : W5 m ρ c (Proc.devRef .tc main_v36)
    = tail m c (shapeCast S800000x8x12 (Cert.KernelIdeal.Region1.gvals (V3 m ρ) c) shapeCasts_S800000x96_S800000x8x12)
        (shapeCast S800000x8x1 (Cert.KernelIdeal.Region1.gates (V3 m ρ) c) shapeCasts_S800000x8_S800000x8x1) := by
  show StableHlo.after hostOps2 (W4 m ρ c) (Proc.devRef .tc main_v36) = _
  after_results_simp
  rw [W4_gvals, W4_gates, W4_arg3]
  rfl

end Cert.KernelIdeal.HostK

end
-- ==== Proof.Layout.lean ====
/-
  Regroupings of rows and matrices, entry by entry.

  Re-reading an array under another shape keeps every entry at its row-major position. So a row of n numbers re-read
  as a matrix of one row is that row; a matrix of 96 columns re-read as 8 groups of 12 has at (e, a, d) the entry
  (e, 12a + d); and a matrix of 8 columns re-read with a third axis of length one has at (e, a, 0) the entry (e, a).
-/
import Idealize.ShloMosaic.Lib.Pipeline.Value
import Idealize.ShloMosaic.Lib.ValueLayout
import proofs.«158694_j80942953660859_2_alg».proof.Proof.Spec

noncomputable section

namespace Cert.Attn

open Idealize.ShloMosaic Idealize.ShloMosaic.ValueIdx Cert.Dense

/-- A row of n numbers re-read as a matrix of one row. -/
theorem shapeCast_asRow {n : ℕ} (b : Row n) (h : (⟨1, ![n]⟩ : Shape).ShapeCasts ⟨2, ![1, n]⟩) :
    shapeCast ⟨2, ![1, n]⟩ b h = asRow b := by
  funext i
  obtain ⟨z, q, rfl⟩ : ∃ (z : Fin 1) (q : Fin n), i = ix2 z q := ⟨i 0, i 1, eq_ix2 i⟩
  obtain rfl : z = 0 := Subsingleton.elim _ _
  refine shapeCast_apply b h (ix2 (0 : Fin 1) q) (ix1 q) ?_
  rw [Shape.rowMajor_val_one, Shape.rowMajor_val_two]
  show q.val = 0 * n + q.val
  omega

/-- A matrix of 96 columns re-read as 8 groups of 12. -/
theorem shapeCast_split12 {M : ℕ} (X : Mat M 96) (h : (⟨2, ![M, 96]⟩ : Shape).ShapeCasts ⟨3, ![M, 8, 12]⟩) :
    shapeCast ⟨3, ![M, 8, 12]⟩ X h = split12 X := by
  funext i
  obtain ⟨e, a, d, rfl⟩ : ∃ (e : Fin M) (a : Fin 8) (d : Fin 12), i = ix3 e a d := ⟨i 0, i 1, i 2, eq_ix3 i⟩
  refine shapeCast_apply X h (ix3 e a d) (ix2 e (col12 a d)) ?_
  rw [Shape.rowMajor_val_two, Shape.rowMajor_val_three]
  show e.val * 96 + (12 * a.val + d.val) = (e.val * 8 + a.val) * 12 + d.val
  omega

/-- A matrix of 8 columns re-read with a third axis of length one. -/
theorem shapeCast_split1 {M : ℕ} (S : Mat M 8) (h : (⟨2, ![M, 8]⟩ : Shape).ShapeCasts ⟨3, ![M, 8, 1]⟩) :
    shapeCast ⟨3, ![M, 8, 1]⟩ S h = split1 S := by
  funext i
  obtain ⟨e, a, z, rfl⟩ : ∃ (e : Fin M) (a : Fin 8) (z : Fin 1), i = ix3 e a z := ⟨i 0, i 1, i 2, eq_ix3 i⟩
  obtain rfl : z = 0 := Subsingleton.elim _ _
  refine shapeCast_apply S h (ix3 e a (0 : Fin 1)) (ix2 e a) ?_
  rw [Shape.rowMajor_val_two, Shape.rowMajor_val_three]
  show e.val * 8 + a.val = (e.val * 8 + a.val) * 1 + 0
  omega

end Cert.Attn

end
-- ==== Proof.KernelValue.lean ====
/-
  The idealized kernel's two results in the specification's terms: the edge output is the affine layer of the
  scores; the node output is the quotient of the two destination sums, of the gated values and of the gates, as
  cubes. The scores are those of the key rows taken at the wrapped source column, the query row (the mean of the
  node features times the query weights) and the projected edge features; a bias cast to a one-row matrix is the
  bias, and taking rows by the printed dimension numbers is taking rows at the clamped index.
-/
import proofs.«158694_j80942953660859_2_alg».proof.Proof.HostK
import proofs.«158694_j80942953660859_2_alg».proof.Proof.Layout

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.HostK Cert.Dense Cert.Attn Cert.Indexed

variable (m : (ℓ : Loc nD τ sig) → Buf (Elt Ideal) ℓ) (ρ : Dev nD → PrngReg)

theorem hN : 0 < 50000 := by norm_num

/-- Taking key rows by the printed dimension numbers is taking rows at the clamped index. -/
theorem gatherK_eq (X : Mat 50000 64) (idx : IVec ⟨2, ![800000, 1]⟩ 32) :
    Host.gather gather_S50000x64_S800000x1_S800000x64_1_0_n_n_0_1_164 X idx = take hN X idx := by
  funext y
  exact rowGather_apply hN gather_S50000x64_S800000x1_S800000x64_1_0_n_n_0_1_164_wf X idx y

/-- The same for value rows. -/
theorem gatherV_eq (X : Mat 50000 96) (idx : IVec ⟨2, ![800000, 1]⟩ 32) :
    Host.gather gather_S50000x96_S800000x1_S800000x96_1_0_n_n_0_1_196 X idx = take hN X idx := by
  funext y
  exact rowGather_apply hN gather_S50000x96_S800000x1_S800000x96_1_0_n_n_0_1_196_wf X idx y

/-- An affine layer whose bias is the bias row cast to a one-row matrix. -/
theorem affine2_asRow {M K N : ℕ} (A : Mat M K) (W : Mat K N) (b : Row N) : affine2 A W (asRow b) = affine A W b :=
  affine_eq_affine2 A W b (asRow b) (fun _ => rfl)

/-- The scores of the kernel. -/
abbrev sc (c : Dev nD) : Mat 800000 64 :=
  score (M := 800000) (take hN (mm (M := 50000) (K := 96) (N := 64) (m ((c : Thread nD τ).loc main_arg0)) (m ((c : Thread nD τ).loc main_arg4))) (srcCol m c))
    (mm (M := 1) (K := 96) (N := 64) (asRow (meanK m c)) (m ((c : Thread nD τ).loc main_arg5)))
    (affine (M := 800000) (K := 96) (N := 64) (m ((c : Thread nD τ).loc main_arg1)) (m ((c : Thread nD τ).loc main_arg8)) (m ((c : Thread nD τ).loc main_arg9)))

theorem scores_eq (c : Dev nD) : Cert.KernelIdeal.Region1.scores (V3 m ρ) c = sc m c := by
  show score (M := 800000) (W3 m ρ c (Proc.devRef .tc main_v13)) (W3 m ρ c (Proc.devRef .tc main_v4))
    (affine2 (M := 800000) (K := 96) (N := 64) (W3 m ρ c (Proc.devRef .tc main_arg1)) (W3 m ρ c (Proc.devRef .tc main_arg8)) (W3 m ρ c (Proc.devRef .tc main_v21))) = _
  rw [W3_v13, W3_v4, W3_arg1, W3_arg8, W3_v21, gatherK_eq, shapeCast_asRow, shapeCast_asRow, affine2_asRow]
  rw [show Host.dotGeneral (F := Ideal) (φ₁ := .f32) (φ₂ := .f32) dot_S1x96_S96x64_S1x64_1_0_0_1_n_n none (asRow (meanK m c)) (m ((c : Thread nD τ).loc main_arg5))
      = mm (M := 1) (K := 96) (N := 64) (asRow (meanK m c)) (m ((c : Thread nD τ).loc main_arg5)) from dotGeneral_plain (M := 1) (K := 96) (N := 64) _ _]

/-- The edge output. -/
theorem eout_eq (c : Dev nD) : W5 m ρ c (Proc.devRef .tc main_v23_0)
    = affine (M := 800000) (K := 64) (N := 96) (sc m c) (m ((c : Thread nD τ).loc main_arg10)) (m ((c : Thread nD τ).loc main_arg11)) := by
  rw [W5_v23_0]
  show affine2 (M := 800000) (K := 64) (N := 96) (Cert.KernelIdeal.Region1.scores (V3 m ρ) c) (W3 m ρ c (Proc.devRef .tc main_arg10))
    (W3 m ρ c (Proc.devRef .tc main_v22)) = _
  rw [scores_eq, W3_arg10, W3_v22, shapeCast_asRow, affine2_asRow]

/-- The gates. -/
theorem gates_eq (c : Dev nD) : Cert.KernelIdeal.Region1.gates (V3 m ρ) c = gate (M := 800000) (sc m c) := by
  show gate (M := 800000) (Cert.KernelIdeal.Region1.scores (V3 m ρ) c) = _
  rw [scores_eq]

/-- The gated values. -/
theorem gvals_eq (c : Dev nD) : Cert.KernelIdeal.Region1.gvals (V3 m ρ) c
    = gated (M := 800000) (gate (M := 800000) (sc m c))
        (take hN (affine (M := 50000) (K := 96) (N := 96) (m ((c : Thread nD τ).loc main_arg0)) (m ((c : Thread nD τ).loc main_arg6)) (m ((c : Thread nD τ).loc main_arg7))) (srcCol m c)) := by
  show gated (M := 800000) (Cert.KernelIdeal.Region1.gates (V3 m ρ) c) (W3 m ρ c (Proc.devRef .tc main_v20)) = _
  rw [gates_eq, W3_v20, gatherV_eq, shapeCast_asRow, affine2_asRow]

/-- The node output. -/
theorem hout_eq (c : Dev nD) : W5 m ρ c (Proc.devRef .tc main_v36)
    = tail m c (split12 (gated (M := 800000) (gate (M := 800000) (sc m c))
        (take hN (affine (M := 50000) (K := 96) (N := 96) (m ((c : Thread nD τ).loc main_arg0)) (m ((c : Thread nD τ).loc main_arg6)) (m ((c : Thread nD τ).loc main_arg7))) (srcCol m c))))
      (split1 (gate (M := 800000) (sc m c))) := by
  rw [W5_v36, shapeCast_split12, shapeCast_split1, gvals_eq, gates_eq]

end Cert.KernelIdeal.Result

end
-- ==== Proof.LibSlabGather.lean ====
/-
  Slabs of a three-axis array taken by run-time indices, entry by entry.

  An array of N slabs, each of A rows of B entries, indexed by an integer column of M indices: slab r of the
  result is the slab the r-th index names, the index read as a signed integer and clamped into the slabs
  0 … N − 1; inside the slab nothing moves. So entry (r, a, b) of the result is entry (index r clamped, a, b)
  of the array.
-/
import Idealize.ShloMosaic.Lib.ValueIdx
import Idealize.ShloMosaic.Lib.Pipeline.Value
import proofs.«158694_j80942953660859_2_alg».proof.Proof.LibIndexed

noncomputable section

namespace Cert.SlabGather

open Idealize.ShloMosaic Idealize.ShloMosaic.ValueIdx Cert.Indexed

variable {α : Type}

/-- The dimension numbers of x[idx] for an array of N slabs of A × B and a column of M indices: the two axes of a
    slab are the offset axes of the result, the slab axis is collapsed and is the one the index names. -/
abbrev slabGather (N A B M : Nat)
    (wf : GatherDims.WF ⟨3, ![N, A, B]⟩ ⟨2, ![M, 1]⟩ ⟨3, ![M, A, B]⟩ [1, 2] [0] [] [0] [] 1 ![1, A, B]) :
    GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

/-- Entry (r, a, b) of the taken slabs is the array at slab "index r, clamped" and position (a, b). -/
theorem slabGather_apply {N A B M w : Nat} (hN : 0 < N)
    (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (idx : IVec ⟨2, ![M, 1]⟩ w) (y : (⟨3, ![M, A, B]⟩ : Shape).Idx) :
    Host.gather (slabGather N A B M wf) x idx y
      = x (ix3 (clampRow N hN (idx (ix2 (y 0) (0 : Fin 1)))) (y 1) (y 2)) := by
  unfold Host.gather
  congr 1
  funext a
  refine Fin.ext ?_
  -- the slab axis: the clamped index, no batching and no offset coordinate
  have h0 : (slabGather N A B M wf).start y idx (0 : Fin 3) + (slabGather N A B M wf).batchCoord y (0 : Fin 3)
      + (slabGather N A B M wf).offCoord y (0 : Fin 3) = (clampRow N hN (idx (ix2 (y 0) (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabGather N A B M wf).startIndexMap from List.mem_singleton.mpr rfl)]
    have hsi : (slabGather N A B M wf).siIdx y ⟨List.idxOf (0 : Fin 3) (slabGather N A B M wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  -- the two axes of a slab: no start, no batching coordinate, the result's own coordinate as the offset
  have h1 : (slabGather N A B M wf).start y idx (1 : Fin 3) + (slabGather N A B M wf).batchCoord y (1 : Fin 3)
      + (slabGather N A B M wf).offCoord y (1 : Fin 3) = (y 1).val := by
    rw [GatherDims.batchCoord_eq_zero _ _ _ List.not_mem_nil]
    unfold GatherDims.start
    rw [dif_neg (show (1 : Fin 3) ∉ ([0] : List (Fin 3)) from by decide)]
    simp only [Nat.add_zero, Nat.zero_add]
    unfold GatherDims.offCoord
    rw [dif_pos ((GatherDims.mem_sKept (slabGather N A B M wf) 1).mpr
      ⟨(show (1 : Fin 3) ∉ ([0] : List (Fin 3)) from by decide), List.not_mem_nil⟩)]
    rfl
  have h2 : (slabGather N A B M wf).start y idx (2 : Fin 3) + (slabGather N A B M wf).batchCoord y (2 : Fin 3)
      + (slabGather N A B M wf).offCoord y (2 : Fin 3) = (y 2).val := by
    rw [GatherDims.batchCoord_eq_zero _ _ _ List.not_mem_nil]
    unfold GatherDims.start
    rw [dif_neg (show (2 : Fin 3) ∉ ([0] : List (Fin 3)) from by decide)]
    simp only [Nat.add_zero, Nat.zero_add]
    unfold GatherDims.offCoord
    rw [dif_pos ((GatherDims.mem_sKept (slabGather N A B M wf) 2).mpr
      ⟨(show (2 : Fin 3) ∉ ([0] : List (Fin 3)) from by decide), List.not_mem_nil⟩)]
    rfl
  match a with
  | ⟨0, _⟩ => exact h0
  | ⟨1, _⟩ => exact h1
  | ⟨2, _⟩ => exact h2

/-- Entry (r, a, b) of the taken slabs, r, a and b coordinates. -/
theorem slabGather_at {N A B M w : Nat} (hN : 0 < N)
    (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (idx : IVec ⟨2, ![M, 1]⟩ w) (r : Fin M) (a : Fin A) (b : Fin B) :
    Host.gather (slabGather N A B M wf) x idx (ix3 r a b)
      = x (ix3 (clampRow N hN (idx (ix2 r (0 : Fin 1)))) a b) :=
  slabGather_apply hN wf x idx (ix3 r a b)

end Cert.SlabGather

end
-- ==== Proof.RefValue.lean ====
/-
  The reference's edge attention, stage by stage, is the specification's.

  The reference forms three cubes of 800000 × 8 × 8 — the key rows h·p taken at each edge's source node, the query
  rows taken at each edge's destination node, the projected edge features e·pe_w + pe_b — multiplies the first two,
  divides by the scale, multiplies by the third, and returns the result flattened to 800000 × 64. Every query row is
  the same row (the mean of h times q), so the row taken does not depend on the destination; and dividing a product
  by the scale is dividing its right factor. Hence the flat result is the score matrix. Summing each group of eight,
  cutting to [−5, 5] and exponentiating gives the gate; the gate repeated over its group's twelve value entries,
  times the value rows h·V_w + V_b taken at the source node, gives the gated values; and the flat score through the
  last affine layer gives the edge output. No entry is assumed finite: only associativity of the product on the
  extended reals is used.
-/
import proofs.«158694_j80942953660859_2_alg».proof.Proof.Spec
import proofs.«158694_j80942953660859_2_alg».proof.Proof.LibSlabGather
import proofs.«158694_j80942953660859_2_alg».proof.Proof.Gen.ReferenceIdeal.Read

noncomputable section

open scoped BigOperators

namespace Cert.RefValue

open Cert.ReferenceIdeal Cert.ReferenceIdeal.Gen Cert.ReferenceIdeal.Read Idealize.ShloMosaic Idealize.ShloMosaic.ValueIdx
open Cert.Dense Cert.Indexed Cert.Attn Cert.SlabGather

variable (x0 : (⟨S50000x96, .f32⟩ : BufTy).Contents (Elt Ideal)) (x1 : (⟨S800000x96, .f32⟩ : BufTy).Contents (Elt Ideal))
  (x2 x3 : (⟨S800000, .i32⟩ : BufTy).Contents (Elt Ideal)) (x4 x5 : (⟨S96x64, .f32⟩ : BufTy).Contents (Elt Ideal))
  (x6 : (⟨S96x96, .f32⟩ : BufTy).Contents (Elt Ideal)) (x7 : (⟨S96, .f32⟩ : BufTy).Contents (Elt Ideal))
  (x8 : (⟨S96x64, .f32⟩ : BufTy).Contents (Elt Ideal)) (x9 : (⟨S64, .f32⟩ : BufTy).Contents (Elt Ideal))
  (x10 : (⟨S64x96, .f32⟩ : BufTy).Contents (Elt Ideal)) (x11 : (⟨S96, .f32⟩ : BufTy).Contents (Elt Ideal))

/-- The number of nodes is positive. -/
theorem hN : 0 < 50000 := by norm_num

/-- The score matrix: the key rows h·p taken at the source column, the one query row mean(h)·q, the projected edge
    features e·pe_w + pe_b. -/
abbrev sc : Mat 800000 64 :=
  score (take hN (mm x0 x4) (val_main_v23 (F := Ideal) x2)) (mm (asRow (val_main_v2 (F := Ideal) x0)) x5) (affine x1 x8 x9)

/-! ## The dense stages -/

/-- The key product is the matrix product h·p. -/
theorem keys_eq : val_main_v4 (F := Ideal) x0 x4 = mm x0 x4 := dotGeneral_plain x0 x4

/-- The value layer is the affine layer h·V_w + V_b. -/
theorem values_eq : val_main_v11 (F := Ideal) x0 x6 x7 = affine x0 x6 x7 :=
  addf_dotGeneral_broadcastInDim x0 x6 x7 _ _

/-- The edge projection is the affine layer e·pe_w + pe_b. -/
theorem proj_eq : val_main_v16 (F := Ideal) x1 x8 x9 = affine x1 x8 x9 :=
  addf_dotGeneral_broadcastInDim x1 x8 x9 _ _

/-- The source column is computed twice by the same operations. -/
theorem src_eq : val_main_v45 (F := Ideal) x2 = val_main_v23 (F := Ideal) x2 := rfl

/-! ## Positions: a group and an entry of the group against a flat column -/

/-- Position (n, a, r) of N × 8 × 8 is position (n, 8a + r) of N × 64. -/
theorem flat8 {N : ℕ} (n : Fin N) (a r : Fin 8) :
    ((n.val * 8 + a.val) * 8 + r.val) / 64 = n.val ∧ ((n.val * 8 + a.val) * 8 + r.val) % 64 = 8 * a.val + r.val := by
  have := a.isLt; have := r.isLt
  constructor <;> omega

/-- Position (n, a, d) of N × 8 × 12 is position (n, 12a + d) of N × 96. -/
theorem flat12 {N : ℕ} (n : Fin N) (a : Fin 8) (d : Fin 12) :
    ((n.val * 8 + a.val) * 12 + d.val) / 96 = n.val ∧ ((n.val * 8 + a.val) * 12 + d.val) % 96 = 12 * a.val + d.val := by
  have := a.isLt; have := d.isLt
  constructor <;> omega

theorem idx5 (n : Fin 50000) (a r : Fin 8) : idx_main_v5 (ix3 n a r) = ix2 n (col8 a r) :=
  funext fun b => Fin.ext (by
    match b with
    | ⟨0, _⟩ => exact (flat8 n a r).1
    | ⟨1, _⟩ => exact (flat8 n a r).2)

theorem idx7 (n : Fin 50000) (a r : Fin 8) : idx_main_v7 (ix3 n a r) = ix2 n (col8 a r) :=
  funext fun b => Fin.ext (by
    match b with
    | ⟨0, _⟩ => exact (flat8 n a r).1
    | ⟨1, _⟩ => exact (flat8 n a r).2)

theorem idx17 (e : Fin 800000) (a r : Fin 8) : idx_main_v17 (ix3 e a r) = ix2 e (col8 a r) :=
  funext fun b => Fin.ext (by
    match b with
    | ⟨0, _⟩ => exact (flat8 e a r).1
    | ⟨1, _⟩ => exact (flat8 e a r).2)

theorem idx12 (n : Fin 50000) (a : Fin 8) (d : Fin 12) : idx_main_v12 (ix3 n a d) = ix2 n (col12 a d) :=
  funext fun b => Fin.ext (by
    match b with
    | ⟨0, _⟩ => exact (flat12 n a d).1
    | ⟨1, _⟩ => exact (flat12 n a d).2)

/-! ## The three cubes the score is made of -/

/-- The key cube taken at the source column: entry (e, a, r) is the key row of e's source node at column 8a + r. -/
theorem keys_taken (e : Fin 800000) (a r : Fin 8) :
    val_main_v24 (F := Ideal) x0 x2 x4 (ix3 e a r)
      = mm x0 x4 (ix2 (clampRow 50000 hN (val_main_v23 (F := Ideal) x2 (ix2 e (0 : Fin 1)))) (col8 a r)) := by
  unfold val_main_v24
  rw [show gather_S50000x8x8_S800000x1_S800000x8x8_12_0_n_n_0_1_188
    = slabGather 50000 8 8 800000 Facts₀.gather_S50000x8x8_S800000x1_S800000x8x8_12_0_n_n_0_1_188_wf from rfl]
  rw [slabGather_at hN, val_main_v5_apply, idx5, keys_eq]

/-- The query cube has every slab equal, so taken at any column it is the one query row: entry (e, a, r) is the
    product of the mean row with q at column 8a + r. -/
theorem queries_taken (e : Fin 800000) (a r : Fin 8) :
    val_main_v31 (F := Ideal) x0 x3 x5 (ix3 e a r)
      = mm (asRow (val_main_v2 (F := Ideal) x0)) x5 (ix2 (0 : Fin 1) (col8 a r)) := by
  unfold val_main_v31
  rw [show gather_S50000x8x8_S800000x1_S800000x8x8_12_0_n_n_0_1_188
    = slabGather 50000 8 8 800000 Facts₀.gather_S50000x8x8_S800000x1_S800000x8x8_12_0_n_n_0_1_188_wf from rfl]
  rw [slabGather_at hN, val_main_v7_apply, idx7, val_main_v6_apply]
  unfold mm
  refine Finset.sum_congr rfl fun k _ => ?_
  rw [val_main_v3_apply]
  refine congr (congrArg _ (congrArg (val_main_v2 (F := Ideal) x0) ?_)) (congrArg x5 ?_)
  · exact funext fun b => Fin.ext (by match b with | ⟨0, _⟩ => rfl)
  · exact funext fun b => Fin.ext (by match b with | ⟨0, _⟩ => rfl | ⟨1, _⟩ => rfl)

/-- The projected edge features as a cube. -/
theorem proj_cube (e : Fin 800000) (a r : Fin 8) :
    val_main_v17 (F := Ideal) x1 x8 x9 (ix3 e a r) = affine x1 x8 x9 (ix2 e (col8 a r)) := by
  rw [val_main_v17_apply, idx17, proj_eq]

/-- The value cube taken at the source column. -/
theorem values_taken (e : Fin 800000) (a : Fin 8) (d : Fin 12) :
    val_main_v46 (F := Ideal) x0 x2 x6 x7 (ix3 e a d)
      = affine x0 x6 x7 (ix2 (clampRow 50000 hN (val_main_v23 (F := Ideal) x2 (ix2 e (0 : Fin 1)))) (col12 a d)) := by
  unfold val_main_v46
  rw [show gather_S50000x8x12_S800000x1_S800000x8x12_12_0_n_n_0_1_1812
    = slabGather 50000 8 12 800000 Facts₀.gather_S50000x8x12_S800000x1_S800000x8x12_12_0_n_n_0_1_1812_wf from rfl]
  rw [slabGather_at hN, val_main_v12_apply, idx12, values_eq]
  rfl

/-! ## The score -/

/-- The score cube: entry (e, a, r) is the score at (e, 8a + r). The reference divides the product of the key and
    query entries by the scale; the score divides the query entry. -/
theorem score_cube (e : Fin 800000) (a r : Fin 8) :
    val_main_v35 (F := Ideal) x0 x1 x2 x3 x4 x5 x8 x9 (ix3 e a r) = sc x0 x1 x2 x4 x5 x8 x9 (ix2 e (col8 a r)) := by
  rw [val_main_v35_apply, val_main_v34_apply, val_main_v32_apply, keys_taken, queries_taken, proj_cube,
    val_main_v33_apply, val_main_cst_4_apply]
  show Ideal.div (mm x0 x4 (ix2 (clampRow 50000 hN (val_main_v23 (F := Ideal) x2 (ix2 e (0 : Fin 1)))) (col8 a r))
      * mm (asRow (val_main_v2 (F := Ideal) x0)) x5 (ix2 (0 : Fin 1) (col8 a r))) scale
      * affine x1 x8 x9 (ix2 e (col8 a r))
    = mm x0 x4 (ix2 (clampRow 50000 hN (val_main_v23 (F := Ideal) x2 (ix2 e (0 : Fin 1)))) (col8 a r))
      * Ideal.div (mm (asRow (val_main_v2 (F := Ideal) x0)) x5 (ix2 (0 : Fin 1) (col8 a r))) scale
      * affine x1 x8 x9 (ix2 e (col8 a r))
  rw [div_scale_left]

/-- (A) The flat score the reference returns from is the score matrix. -/
theorem score_flat :
    val_main_v60 (F := Ideal) x0 x1 x2 x3 x4 x5 x8 x9
      = score (take hN (mm x0 x4) (val_main_v23 (F := Ideal) x2)) (mm (asRow (val_main_v2 (F := Ideal) x0)) x5) (affine x1 x8 x9) := by
  funext i
  obtain ⟨e, c, rfl⟩ : ∃ (e : Fin 800000) (c : Fin 64), i = ix2 e c := ⟨i 0, i 1, eq_ix2 i⟩
  have hc := c.isLt
  have h60 : idx_main_v60 (ix2 e c) = ix3 e (⟨c.val / 8, by omega⟩ : Fin 8) (⟨c.val % 8, by omega⟩ : Fin 8) :=
    funext fun b => Fin.ext (by
      match b with
      | ⟨0, _⟩ => show (e.val * 64 + c.val) / 64 = e.val; omega
      | ⟨1, _⟩ => show (e.val * 64 + c.val) / 8 % 8 = c.val / 8; omega
      | ⟨2, _⟩ => show (e.val * 64 + c.val) % 8 = c.val % 8; omega)
  rw [val_main_v60_apply, h60, score_cube]
  have hcol : col8 (⟨c.val / 8, by omega⟩ : Fin 8) (⟨c.val % 8, by omega⟩ : Fin 8) = c :=
    Fin.ext (by show 8 * (c.val / 8) + c.val % 8 = c.val; omega)
  rw [hcol]

/-! ## The gate -/

/-- (B) The exponential of the cut group sums is the gate of the score matrix. -/
theorem gate_cube :
    val_main_v39 (F := Ideal) x0 x1 x2 x3 x4 x5 x8 x9
      = split1 (gate (score (take hN (mm x0 x4) (val_main_v23 (F := Ideal) x2)) (mm (asRow (val_main_v2 (F := Ideal) x0)) x5) (affine x1 x8 x9))) := by
  funext i
  obtain ⟨e, a, z, rfl⟩ : ∃ (e : Fin 800000) (a : Fin 8) (z : Fin 1), i = ix3 e a z := ⟨i 0, i 1, i 2, eq_ix3 i⟩
  rw [val_main_v39_apply, val_main_v38_apply, val_main_call0_v4_apply, val_main_call0_v3_apply, val_main_cst_7_apply,
    val_main_call0_v2_apply, val_main_call0_v1_apply, val_main_call0_v0_apply, val_main_cst_6_apply,
    val_main_v37_apply, val_main_v36_apply, val_main_cst_5_apply]
  simp only [Ideal.hostUnary_exp_def, Ideal.minimumf_def, Ideal.maximumf_def, Ideal.ofBits_def, Ideal.ofBits_zero_f32, zero_add]
  show _ = Ideal.exp (min hi (max lo (∑ r : Fin 8, sc x0 x1 x2 x4 x5 x8 x9 (ix2 e (col8 a r)))))
  refine congrArg Ideal.exp (congrArg (min hi) (congrArg (max lo) (Finset.sum_congr rfl fun k _ => ?_)))
  have hk : idx_main_v36 (idx_main_v37 (ix3 e a z)) k = ix3 e a k :=
    funext fun b => Fin.ext (by match b with | ⟨0, _⟩ => rfl | ⟨1, _⟩ => rfl | ⟨2, _⟩ => rfl)
  rw [hk, score_cube]

/-! ## The gated values -/

/-- (C) The gate broadcast over a group's twelve entries times the value rows taken at the source column. -/
theorem gated_cube :
    val_main_v48 (F := Ideal) x0 x1 x2 x3 x4 x5 x6 x7 x8 x9
      = split12 (gated (gate (score (take hN (mm x0 x4) (val_main_v23 (F := Ideal) x2)) (mm (asRow (val_main_v2 (F := Ideal) x0)) x5) (affine x1 x8 x9)))
          (take hN (affine x0 x6 x7) (val_main_v23 (F := Ideal) x2))) := by
  funext i
  obtain ⟨e, a, d, rfl⟩ : ∃ (e : Fin 800000) (a : Fin 8) (d : Fin 12), i = ix3 e a d := ⟨i 0, i 1, i 2, eq_ix3 i⟩
  have h47 : idx_main_v47 (ix3 e a d) = ix3 e a (0 : Fin 1) :=
    funext fun b => Fin.ext (by match b with | ⟨0, _⟩ => rfl | ⟨1, _⟩ => rfl | ⟨2, _⟩ => rfl)
  rw [val_main_v48_apply, val_main_v47_apply, h47, gate_cube, values_taken]
  show gate (sc x0 x1 x2 x4 x5 x8 x9) (ix2 e a)
      * affine x0 x6 x7 (ix2 (clampRow 50000 hN (val_main_v23 (F := Ideal) x2 (ix2 e (0 : Fin 1)))) (col12 a d))
    = gate (sc x0 x1 x2 x4 x5 x8 x9) (ix2 e (head12 (col12 a d)))
      * affine x0 x6 x7 (ix2 (clampRow 50000 hN (val_main_v23 (F := Ideal) x2 (ix2 e (0 : Fin 1)))) (col12 a d))
  rw [head12_col12]

/-! ## The edge output -/

/-- (D) The edge output is the affine layer of the flat score. -/
theorem edge_out :
    val_main_v64 (F := Ideal) x0 x1 x2 x3 x4 x5 x8 x9 x10 x11
      = affine (val_main_v60 (F := Ideal) x0 x1 x2 x3 x4 x5 x8 x9) x10 x11 :=
  addf_dotGeneral_broadcastInDim (val_main_v60 (F := Ideal) x0 x1 x2 x3 x4 x5 x8 x9) x10 x11 _ _

end Cert.RefValue

end
-- ==== Proof.RefTail.lean ====
/-
  The reference's two results in terms of the specification.

  The node output is the accumulated gated values divided, entry by entry, by the accumulated gates plus a small
  constant, flattened to 50000 × 96: here it is written with the gate and the gated values of the score matrix in
  place of the stages that compute them, the two accumulations left as the reference spells them. The edge output is
  the affine layer of the score matrix. Every run of the reference ends with its two results at these terms of the
  argument arrays, the arguments unchanged.
-/
import proofs.«158694_j80942953660859_2_alg».proof.Proof.RefValue

noncomputable section

open scoped BigOperators

namespace Cert.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open Cert.Dense Cert.Indexed Cert.Attn Cert.SlabGather

section Tail

variable (x0 : (⟨S50000x96, .f32⟩ : BufTy).Contents (Elt Ideal)) (x1 : (⟨S800000x96, .f32⟩ : BufTy).Contents (Elt Ideal))
  (x2 x3 : (⟨S800000, .i32⟩ : BufTy).Contents (Elt Ideal)) (x4 x5 : (⟨S96x64, .f32⟩ : BufTy).Contents (Elt Ideal))
  (x6 : (⟨S96x96, .f32⟩ : BufTy).Contents (Elt Ideal)) (x7 : (⟨S96, .f32⟩ : BufTy).Contents (Elt Ideal))
  (x8 : (⟨S96x64, .f32⟩ : BufTy).Contents (Elt Ideal)) (x9 : (⟨S64, .f32⟩ : BufTy).Contents (Elt Ideal))
  (x10 : (⟨S64x96, .f32⟩ : BufTy).Contents (Elt Ideal)) (x11 : (⟨S96, .f32⟩ : BufTy).Contents (Elt Ideal))

/-- The node output: the gated values accumulated at the destination nodes, divided by the gates accumulated there
    plus the small constant, flattened. The zero arrays, the destination column and the constant stay the reference's
    own stages. -/
theorem hout_tail :
    val_main_v59 (F := Ideal) x0 x1 x2 x3 x4 x5 x6 x7 x8 x9
      = shapeCast _ (Host.divf (F := Ideal) (φ := .f32)
        (Host.scatterAdd (F := Ideal) (φ := .f32) scatter_S50000x8x12_S800000x1_S800000x8x12_12_0_0_1 (val_main_v49 (F := Ideal)) (val_main_v50 (F := Ideal) x3)
          (split12 (gated (gate (score (take hN (mm x0 x4) (val_main_v23 (F := Ideal) x2)) (mm (asRow (val_main_v2 (F := Ideal) x0)) x5) (affine x1 x8 x9))) (take hN (affine x0 x6 x7) (val_main_v23 (F := Ideal) x2)))))
        (broadcastInDim S50000x8x12 ![0, 1, 2] bcast_S50000x8x1_S50000x8x12_0_1_2
          (addf (F := Ideal) (φ := .f32) (Host.scatterAdd (F := Ideal) (φ := .f32) scatter_S50000x8x1_S800000x1_S800000x8x1_12_0_0_1 (val_main_v52 (F := Ideal)) (val_main_v53 (F := Ideal) x3)
              (split1 (gate (score (take hN (mm x0 x4) (val_main_v23 (F := Ideal) x2)) (mm (asRow (val_main_v2 (F := Ideal) x0)) x5) (affine x1 x8 x9)))))
            (val_main_v55 (F := Ideal)))))
      shapeCasts_S50000x8x12_S50000x96 := by
  unfold val_main_v59 val_main_v58 val_main_v57 val_main_v56 val_main_v54 val_main_v51
  rw [gated_cube, gate_cube]

/-- The edge output is the affine layer of the score matrix. -/
theorem eout_spec :
    val_main_v64 (F := Ideal) x0 x1 x2 x3 x4 x5 x8 x9 x10 x11
      = affine (score (take hN (mm x0 x4) (val_main_v23 (F := Ideal) x2)) (mm (asRow (val_main_v2 (F := Ideal) x0)) x5) (affine x1 x8 x9)) x10 x11 := by
  rw [edge_out, score_flat]

end Tail

/-- Every run of the reference ends with the node output and the edge output at the terms above of the argument
    arrays, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v59)
        = shapeCast _ (Host.divf (F := Ideal) (φ := .f32)
        (Host.scatterAdd (F := Ideal) (φ := .f32) scatter_S50000x8x12_S800000x1_S800000x8x12_12_0_0_1 (val_main_v49 (F := Ideal)) (val_main_v50 (F := Ideal) (m' ((c.tc : Thread nD τ).loc main_arg3)))
          (split12 (gated (gate (score (take hN (mm (m' ((c.tc : Thread nD τ).loc main_arg0)) (m' ((c.tc : Thread nD τ).loc main_arg4))) (val_main_v23 (F := Ideal) (m' ((c.tc : Thread nD τ).loc main_arg2)))) (mm (asRow (val_main_v2 (F := Ideal) (m' ((c.tc : Thread nD τ).loc main_arg0)))) (m' ((c.tc : Thread nD τ).loc main_arg5))) (affine (m' ((c.tc : Thread nD τ).loc main_arg1)) (m' ((c.tc : Thread nD τ).loc main_arg8)) (m' ((c.tc : Thread nD τ).loc main_arg9))))) (take hN (affine (m' ((c.tc : Thread nD τ).loc main_arg0)) (m' ((c.tc : Thread nD τ).loc main_arg6)) (m' ((c.tc : Thread nD τ).loc main_arg7))) (val_main_v23 (F := Ideal) (m' ((c.tc : Thread nD τ).loc main_arg2)))))))
        (broadcastInDim S50000x8x12 ![0, 1, 2] bcast_S50000x8x1_S50000x8x12_0_1_2
          (addf (F := Ideal) (φ := .f32) (Host.scatterAdd (F := Ideal) (φ := .f32) scatter_S50000x8x1_S800000x1_S800000x8x1_12_0_0_1 (val_main_v52 (F := Ideal)) (val_main_v53 (F := Ideal) (m' ((c.tc : Thread nD τ).loc main_arg3)))
              (split1 (gate (score (take hN (mm (m' ((c.tc : Thread nD τ).loc main_arg0)) (m' ((c.tc : Thread nD τ).loc main_arg4))) (val_main_v23 (F := Ideal) (m' ((c.tc : Thread nD τ).loc main_arg2)))) (mm (asRow (val_main_v2 (F := Ideal) (m' ((c.tc : Thread nD τ).loc main_arg0)))) (m' ((c.tc : Thread nD τ).loc main_arg5))) (affine (m' ((c.tc : Thread nD τ).loc main_arg1)) (m' ((c.tc : Thread nD τ).loc main_arg8)) (m' ((c.tc : Thread nD τ).loc main_arg9)))))))
            (val_main_v55 (F := Ideal)))))
      shapeCasts_S50000x8x12_S50000x96
      ∧ r.2.mem ((c.tc : Thread nD τ).loc main_v64)
        = affine (score (take hN (mm (m' ((c.tc : Thread nD τ).loc main_arg0)) (m' ((c.tc : Thread nD τ).loc main_arg4))) (val_main_v23 (F := Ideal) (m' ((c.tc : Thread nD τ).loc main_arg2)))) (mm (asRow (val_main_v2 (F := Ideal) (m' ((c.tc : Thread nD τ).loc main_arg0)))) (m' ((c.tc : Thread nD τ).loc main_arg5))) (affine (m' ((c.tc : Thread nD τ).loc main_arg1)) (m' ((c.tc : Thread nD τ).loc main_arg8)) (m' ((c.tc : Thread nD τ).loc main_arg9)))) (m' ((c.tc : Thread nD τ).loc main_arg10)) (m' ((c.tc : Thread nD τ).loc main_arg11))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) :=
  (θ_run defs _ _).mono (fun _ h c =>
    ⟨(h c).1.trans ((val_main_v59_eq m' c).trans (hout_tail _ _ _ _ _ _ _ _ _ _)),
      (h c).2.1.trans ((val_main_v64_eq _ _ _ _ _ _ _ _ _ _).trans (eout_spec _ _ _ _ _ _ _ _ _ _)),
      (h c).2.2⟩)
    (Cert.ReferenceIdeal.Value.run (F := Ideal) m' ρ')

end Cert.RefValue

end
-- ==== Proof.lean ====
/-
  The certificate: the printed kernel, its idealized form and the idealized reference each run to the end without
  a fault and leave their arguments as they were, and on the extended reals the idealized kernel and the
  idealized reference end with equal results.

  The layer is edge attention on a graph. Keys and values are affine images of the node features; every edge
  multiplies the key row of its source node, entry by entry, with one query row (the mean node feature times the
  query weights, scaled down by a constant) and with its own projected features; the 64 products are summed in 8
  groups of 8, each sum is cut to an interval and exponentiated, and the 8 numbers gate the 8 groups of 12 entries
  of the source node's value row; the gated values and the gates are summed into the destination nodes and
  divided. The kernel computes keys and values block of rows by block of rows, takes the rows at the source
  indices on the host, computes the per-edge stages block of rows by block of rows with the group sums and the
  repetition of a gate over its group written as products with two constant 0/1 matrices, and leaves the two sums
  and the quotient to the host. The reference computes the same stages on whole three-axis arrays; it divides the
  product of key and query by the scale where the kernel divides the query first, and it reads the query row
  through a gather at the destination index from a matrix all of whose rows are that row. Both differences vanish
  on the extended reals with no finiteness assumption: division by a nonzero real is multiplication by its
  inverse, multiplication is associative, and an entry times zero is zero even when the entry is infinite.
-/
import proofs.«158694_j80942953660859_2_alg».proof.Defs
import proofs.«158694_j80942953660859_2_alg».proof.Proof.Gen.Kernel
import proofs.«158694_j80942953660859_2_alg».proof.Proof.Gen.Kernel.Skeleton
import proofs.«158694_j80942953660859_2_alg».proof.Proof.Gen.Kernel.Launch
import proofs.«158694_j80942953660859_2_alg».proof.Proof.Gen.Kernel.Points
import proofs.«158694_j80942953660859_2_alg».proof.Proof.Gen.Kernel.Frame
import proofs.«158694_j80942953660859_2_alg».proof.Proof.Gen.KernelIdeal
import proofs.«158694_j80942953660859_2_alg».proof.Proof.Gen.KernelIdeal.Skeleton
import proofs.«158694_j80942953660859_2_alg».proof.Proof.Gen.KernelIdeal.Launch
import proofs.«158694_j80942953660859_2_alg».proof.Proof.Gen.KernelIdeal.Points
import proofs.«158694_j80942953660859_2_alg».proof.Proof.Gen.KernelIdeal.Frame
import proofs.«158694_j80942953660859_2_alg».proof.Proof.Gen.ReferenceIdeal
import proofs.«158694_j80942953660859_2_alg».proof.Proof.Gen.ReferenceIdeal.Run
import proofs.«158694_j80942953660859_2_alg».proof.Proof.Gen.ReferenceIdeal.Read
import proofs.«158694_j80942953660859_2_alg».proof.Proof.Gen.Pre_finite_inputs
import proofs.«158694_j80942953660859_2_alg».proof.Proof.RunK
import proofs.«158694_j80942953660859_2_alg».proof.Proof.KernelValue
import proofs.«158694_j80942953660859_2_alg».proof.Proof.RefTail
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference's run with its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the node output at the quotient of the two destination sums of the gated values and of
    the gates, and with the edge output at the affine layer of the scores, of arguments that agree. -/
theorem algebraic : Cert.algebraic_KernelIdeal_ReferenceIdeal := by
  intro m ρ m' ρ' _ hagree
  refine ⟨fun c => Cert.KernelIdeal.Gen.W5 m ρ c (Proc.devRef .tc Cert.KernelIdeal.main_v36),
    fun c => Cert.KernelIdeal.Gen.W5 m ρ c (Proc.devRef .tc Cert.KernelIdeal.main_v23_0),
    Cert.KernelIdeal.Run.run_results (F := Ideal) m ρ, ?_⟩
  refine (θ_run Cert.ReferenceIdeal.defs _ _).mono (fun r h c => ?_) (Cert.RefValue.ref_run m' ρ')
  obtain ⟨h59, h64, hargs⟩ := h c
  obtain ⟨a0, a1, a2, a3, a4, a5, a6, a7, a8, a9, a10, a11⟩ := hagree c
  refine ⟨h59.trans ?_, h64.trans ?_, hargs⟩
  · rw [a0, a1, a2, a3, a4, a5, a6, a7, a8, a9]
    exact (Cert.KernelIdeal.Result.hout_eq m ρ c).symm
  · rw [a0, a1, a2, a4, a5, a8, a9, a10, a11]
    exact (Cert.KernelIdeal.Result.eout_eq m ρ c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
